-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x128x128x128 : Shape := ⟨5, ![2, 1, 128, 128, 128]⟩
abbrev S4096x4096 : Shape := ⟨2, ![4096, 4096]⟩
abbrev S4096 : Shape := ⟨1, ![4096]⟩
abbrev S_ : Shape := ⟨0, ![]⟩

class Facts : Prop where
  bcast_S_S2x1x128x128x128 : S_.BroadcastsInDim S2x1x128x128x128 (![] : Fin 0 → Fin S2x1x128x128x128.rank)
  reducesTo_S2x1x128x128x128_S_d0_1_2_3_4 : S2x1x128x128x128.ReducesTo [0, 1, 2, 3, 4] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096x4096 .f32) (main_arg9 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x1x128x128x128 .f32) (main_arg1 : FVec F S2x1x128x128x128 .f32) (main_arg2 : FVec F S4096x4096 .f32) (main_arg3 : FVec F S4096 .f32) (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) : IVec S_ 1 :=
  let main_v0 : FVec F S2x1x128x128x128 .f32 := Host.absf main_arg0
  let main_cst : FVec F S_ .f32 := constant S_ .f32 0x7F800000#32
  let main_v1 : FVec F S2x1x128x128x128 .f32 := broadcastInDim S2x1x128x128x128 ![] bcast_S_S2x1x128x128x128 main_cst
  let main_v2 : IVec S2x1x128x128x128 1 := cmpf .olt main_v0 main_v1
  let main_c : IVec S_ 1 := constantI S_ 1 1#1
  let main_v3 : IVec S_ 1 := (fun x v => Host.reduce IntOp.andi x v reducesTo_S2x1x128x128x128_S_d0_1_2_3_4 h_S_) main_v2 main_c
  let main_v4 : FVec F S2x1x128x128x128 .f32 := Host.absf main_arg1
  let main_cst_0 : FVec F S_ .f32 := constant S_ .f32 0x7F800000#32
  let main_v5 : FVec F S2x1x128x128x128 .f32 := broadcastInDim S2x1x128x128x128 ![] bcast_S_S2x1x128x128x128 main_cst_0
  let main_v6 : IVec S2x1x128x128x128 1 := cmpf .olt main_v4 main_v5
  let main_c_1 : IVec S_ 1 := constantI S_ 1 1#1
  let main_v7 : IVec S_ 1 := (fun x v => Host.reduce IntOp.andi x v reducesTo_S2x1x128x128x128_S_d0_1_2_3_4 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S2x1x128x128x128 : Shape := ⟨5, ![2, 1, 128, 128, 128]⟩
abbrev S4096x4096 : Shape := ⟨2, ![4096, 4096]⟩
abbrev S4096 : Shape := ⟨1, ![4096]⟩
abbrev S2x128x128x128 : Shape := ⟨4, ![2, 128, 128, 128]⟩
abbrev S2x8x16x8x16x8x16 : Shape := ⟨7, ![2, 8, 16, 8, 16, 8, 16]⟩
abbrev S2x8x8x8x16x16x16 : Shape := ⟨7, ![2, 8, 8, 8, 16, 16, 16]⟩
abbrev S1024x4096 : Shape := ⟨2, ![1024, 4096]⟩
abbrev S1x4096 : Shape := ⟨2, ![1, 4096]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩

abbrev nBuf : Space → Nat
  | .hbm => 30
  | .vmem => 26
  | .smem => 0
  | _ => 0

abbrev bufTy : (tb : Table) → Fin (tcTables nBuf tb) → BufTy
  | .hbm, ⟨0, _⟩ => ⟨S2x1x128x128x128, .f32⟩
  | .hbm, ⟨1, _⟩ => ⟨S2x1x128x128x128, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S2x128x128x128, .f32⟩
  | .hbm, ⟨11, _⟩ => ⟨S2x8x16x8x16x8x16, .f32⟩
  | .hbm, ⟨12, _⟩ => ⟨S2x8x8x8x16x16x16, .f32⟩
  | .hbm, ⟨13, _⟩ => ⟨S1024x4096, .f32⟩
  | .hbm, ⟨14, _⟩ => ⟨S2x128x128x128, .f32⟩
  | .hbm, ⟨15, _⟩ => ⟨S2x8x16x8x16x8x16, .f32⟩
  | .hbm, ⟨16, _⟩ => ⟨S2x8x8x8x16x16x16, .f32⟩
  | .hbm, ⟨17, _⟩ => ⟨S1024x4096, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S1024x4096, .f32⟩
  | .hbm, ⟨22, _⟩ => ⟨S1x4096, .f32⟩
  | .hbm, ⟨23, _⟩ => ⟨S1024x4096, .f32⟩
  | .hbm, ⟨24, _⟩ => ⟨S2x8x8x8x16x16x16, .f32⟩
  | .hbm, ⟨25, _⟩ => ⟨S2x8x16x8x16x8x16, .f32⟩
  | .hbm, ⟨26, _⟩ => ⟨S2x1x128x128x128, .f32⟩
  | .hbm, ⟨27, _⟩ => ⟨S2x8x8x8x16x16x16, .f32⟩
  | .hbm, ⟨28, _⟩ => ⟨S2x8x16x8x16x8x16, .f32⟩
  | .hbm, ⟨29, _⟩ => ⟨S2x1x128x128x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x512, .f32⟩
  | .local _ .vmem, ⟨22, _⟩ => ⟨S1x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | _, _ => ⟨S2x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![1, 8, 4], ![false, false, false]⟩

def k1_cond2 (i : grid1.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_17 : BitVec 32 := 0#32
  let v27 : BitVec 1 := Scalar.cmpi .ne v26 c0_i32_17
  v27

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S2x1x128x128x128_S2x128x128x128 : S2x1x128x128x128.ShapeCasts S2x128x128x128
  shapeCasts_S2x128x128x128_S2x8x16x8x16x8x16 : S2x128x128x128.ShapeCasts S2x8x16x8x16x8x16
  transposes_S2x8x16x8x16x8x16_S2x8x8x8x16x16x16_0_1_3_5_2_4_6 : S2x8x16x8x16x8x16.Transposes [0, 1, 3, 5, 2, 4, 6] S2x8x8x8x16x16x16
  shapeCasts_S2x8x8x8x16x16x16_S1024x4096 : S2x8x8x8x16x16x16.ShapeCasts S1024x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x4096_S2x8x8x8x16x16x16 : S1024x4096.ShapeCasts S2x8x8x8x16x16x16
  transposes_S2x8x8x8x16x16x16_S2x8x16x8x16x8x16_0_1_4_2_5_3_6 : S2x8x8x8x16x16x16.Transposes [0, 1, 4, 2, 5, 3, 6] S2x8x16x8x16x8x16
  shapeCasts_S2x8x16x8x16x8x16_S2x1x128x128x128 : S2x8x16x8x16x8x16.ShapeCasts S2x1x128x128x128
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x4096.size a
  hwx0_0 : ∀ i : grid0.Coords, EltTy.bits .f32 = 32 ∨ (Rect.block (s := S1024x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x4096.size a
  hwx0_5 : ∀ i : grid0.Coords, EltTy.bits .f32 = 32 ∨ (Rect.block (s := S1024x4096) S1024x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x4096.size a
  hwx1_0 : ∀ i : grid1.Coords, EltTy.bits .f32 = 32 ∨ (Rect.block (s := S1024x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x4096.size a
  hwx1_1 : ∀ i : grid1.Coords, EltTy.bits .f32 = 32 ∨ (Rect.block (s := S1024x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .f32 = 32 ∨ (Rect.block (s := S4096x4096) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x4096.size a
  hwx1_5 : ∀ i : grid1.Coords, EltTy.bits .f32 = 32 ∨ (Rect.block (s := S1024x4096) S1024x512.size (cc1_transform_5 i) (hinb1_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v7) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x1x128x128x128 : Shape := ⟨5, ![2, 1, 128, 128, 128]⟩
abbrev S4096x4096 : Shape := ⟨2, ![4096, 4096]⟩
abbrev S4096 : Shape := ⟨1, ![4096]⟩
abbrev S2x128x128x128 : Shape := ⟨4, ![2, 128, 128, 128]⟩
abbrev S2x8x16x8x16x8x16 : Shape := ⟨7, ![2, 8, 16, 8, 16, 8, 16]⟩
abbrev S2x8x8x8x16x16x16 : Shape := ⟨7, ![2, 8, 8, 8, 16, 16, 16]⟩
abbrev S2x512x4096 : Shape := ⟨3, ![2, 512, 4096]⟩
abbrev S1x1x4096 : Shape := ⟨3, ![1, 1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S2x1x128x128x128, .f32⟩
  | .hbm, ⟨1, _⟩ => ⟨S2x1x128x128x128, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S2x128x128x128, .f32⟩
  | .hbm, ⟨11, _⟩ => ⟨S2x8x16x8x16x8x16, .f32⟩
  | .hbm, ⟨12, _⟩ => ⟨S2x8x8x8x16x16x16, .f32⟩
  | .hbm, ⟨13, _⟩ => ⟨S2x512x4096, .f32⟩
  | .hbm, ⟨14, _⟩ => ⟨S2x512x4096, .f32⟩
  | .hbm, ⟨15, _⟩ => ⟨S1x1x4096, .f32⟩
  | .hbm, ⟨16, _⟩ => ⟨S2x512x4096, .f32⟩
  | .hbm, ⟨17, _⟩ => ⟨S2x512x4096, .f32⟩
  | .hbm, ⟨18, _⟩ => ⟨S2x8x8x8x16x16x16, .f32⟩
  | .hbm, ⟨19, _⟩ => ⟨S2x8x16x8x16x8x16, .f32⟩
  | .hbm, ⟨20, _⟩ => ⟨S2x1x128x128x128, .f32⟩
  | .hbm, ⟨21, _⟩ => ⟨S2x128x128x128, .f32⟩
  | .hbm, ⟨22, _⟩ => ⟨S2x8x16x8x16x8x16, .f32⟩
  | .hbm, ⟨23, _⟩ => ⟨S2x8x8x8x16x16x16, .f32⟩
  | .hbm, ⟨24, _⟩ => ⟨S2x512x4096, .f32⟩
  | .hbm, ⟨25, _⟩ => ⟨S2x512x4096, .f32⟩
  | .hbm, ⟨26, _⟩ => ⟨S1x1x4096, .f32⟩
  | .hbm, ⟨27, _⟩ => ⟨S2x512x4096, .f32⟩
  | .hbm, ⟨28, _⟩ => ⟨S2x512x4096, .f32⟩
  | .hbm, ⟨29, _⟩ => ⟨S2x8x8x8x16x16x16, .f32⟩
  | .hbm, ⟨30, _⟩ => ⟨S2x8x16x8x16x8x16, .f32⟩
  | .hbm, ⟨31, _⟩ => ⟨S2x1x128x128x128, .f32⟩
  | .hbm, ⟨32, _⟩ => ⟨S2x128x128x128, .f32⟩
  | .hbm, ⟨33, _⟩ => ⟨S2x8x16x8x16x8x16, .f32⟩
  | .hbm, ⟨34, _⟩ => ⟨S2x8x8x8x16x16x16, .f32⟩
  | .hbm, ⟨35, _⟩ => ⟨S2x512x4096, .f32⟩
  | .hbm, ⟨36, _⟩ => ⟨S2x512x4096, .f32⟩
  | .hbm, ⟨37, _⟩ => ⟨S1x1x4096, .f32⟩
  | .hbm, ⟨38, _⟩ => ⟨S2x512x4096, .f32⟩
  | .hbm, ⟨39, _⟩ => ⟨S2x512x4096, .f32⟩
  | .hbm, ⟨40, _⟩ => ⟨S2x8x8x8x16x16x16, .f32⟩
  | .hbm, ⟨41, _⟩ => ⟨S2x8x16x8x16x8x16, .f32⟩
  | .hbm, ⟨42, _⟩ => ⟨S2x1x128x128x128, .f32⟩
  | .hbm, ⟨43, _⟩ => ⟨S2x128x128x128, .f32⟩
  | .hbm, ⟨44, _⟩ => ⟨S2x8x16x8x16x8x16, .f32⟩
  | .hbm, ⟨45, _⟩ => ⟨S2x8x8x8x16x16x16, .f32⟩
  | .hbm, ⟨46, _⟩ => ⟨S2x512x4096, .f32⟩
  | .hbm, ⟨47, _⟩ => ⟨S2x512x4096, .f32⟩
  | .hbm, ⟨48, _⟩ => ⟨S1x1x4096, .f32⟩
  | .hbm, ⟨49, _⟩ => ⟨S2x512x4096, .f32⟩
  | .hbm, ⟨50, _⟩ => ⟨S2x512x4096, .f32⟩
  | .hbm, ⟨51, _⟩ => ⟨S2x8x8x8x16x16x16, .f32⟩
  | .hbm, ⟨52, _⟩ => ⟨S2x8x16x8x16x8x16, .f32⟩
  | .hbm, ⟨53, _⟩ => ⟨S2x1x128x128x128, .f32⟩
  | .hbm, ⟨54, _⟩ => ⟨S2x1x128x128x128, .f32⟩
  | .hbm, ⟨55, _⟩ => ⟨S2x1x128x128x128, .f32⟩
  | _, _ => ⟨S2x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]

class Facts₀ : Prop where
  shapeCasts_S2x1x128x128x128_S2x128x128x128 : S2x1x128x128x128.ShapeCasts S2x128x128x128
  shapeCasts_S2x128x128x128_S2x8x16x8x16x8x16 : S2x128x128x128.ShapeCasts S2x8x16x8x16x8x16
  transposes_S2x8x16x8x16x8x16_S2x8x8x8x16x16x16_0_1_3_5_2_4_6 : S2x8x16x8x16x8x16.Transposes [0, 1, 3, 5, 2, 4, 6] S2x8x8x8x16x16x16
  shapeCasts_S2x8x8x8x16x16x16_S2x512x4096 : S2x8x8x8x16x16x16.ShapeCasts S2x512x4096
  bcast_S4096_S1x1x4096_2 : S4096.BroadcastsInDim S1x1x4096 (![2] : Fin 1 → Fin S1x1x4096.rank)
  bcast_S1x1x4096_S2x512x4096_0_1_2 : S1x1x4096.BroadcastsInDim S2x512x4096 (![0, 1, 2] : Fin 3 → Fin S2x512x4096.rank)
  shapeCasts_S2x512x4096_S2x8x8x8x16x16x16 : S2x512x4096.ShapeCasts S2x8x8x8x16x16x16
  transposes_S2x8x8x8x16x16x16_S2x8x16x8x16x8x16_0_1_4_2_5_3_6 : S2x8x8x8x16x16x16.Transposes [0, 1, 4, 2, 5, 3, 6] S2x8x16x8x16x8x16
  shapeCasts_S2x8x16x8x16x8x16_S2x1x128x128x128 : S2x8x16x8x16x8x16.ShapeCasts S2x1x128x128x128
  dot_S2x512x4096_S4096x4096_S2x512x4096_2_1_01_0_n_n_wf : DotDims.WF S2x512x4096 S4096x4096 S2x512x4096 [2] [1] [0, 1] [0] [] []

variable [Facts₀]

def dot_S2x512x4096_S4096x4096_S2x512x4096_2_1_01_0_n_n : DotDims S2x512x4096 S4096x4096 S2x512x4096 where
  lhsContracting := [2]
  rhsContracting := [1]
  lhsNonContracting := [0, 1]
  rhsNonContracting := [0]
  lhsBatch := []
  rhsBatch := []
  wf := dot_S2x512x4096_S4096x4096_S2x512x4096_2_1_01_0_n_n_wf

class Facts : Prop extends Facts₀ where

variable [Facts]
-- ==== Proof.KernelBase.lean ====
/-
  What the two regions' bodies are run against: for each of the two fused matrix-product calls, the two branch conditions
  of its body decided over the 1 × 8 × 4 grid (the accumulator is zeroed where the innermost coordinate is 0, the output
  block is stored where it is 3), where the output window is idle, the memrefs the body is called with at a point, and
  what the region's invariant holds besides the windows.
-/
import proofs.«167216_j48137993453602_2_alg».proof.Proof.Gen.Kernel.Launch
import proofs.«167216_j48137993453602_2_alg».proof.Proof.Gen.Kernel.Skeleton
import proofs.«167216_j48137993453602_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the branch conditions, where the output window is idle, the memrefs the body is called with -/

/-- The first branch of the body (the accumulator is zeroed): taken when the innermost grid coordinate is 0. -/
abbrev cond0_0 (i : grid0.Coords) : Prop := (Scalar.cmpi .ne (Scalar.extui (Scalar.cmpi .eq (BitVec.ofNat 32 (i 2).val) 0#32)) 0#32) = 1#1
/-- The grid is 1 × 8 × 4 row-major, so that is at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The last branch (the accumulator plus the bias is stored to the output block): taken when the innermost coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The five input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The output window is idle, and not written back, wherever the last branch is not taken; live where it is. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-- One staging buffer of the output window, through which its contents are stated. -/
abbrev VO0_5 : View sig .tc .vmem S1024x512 .f32 := (Memref.whole cc0_stg5_0 : Memref sig .tc .vmem S1024x512 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S1024x512 .f32 := Memref.whole cc0_scratch0
abbrev VS0_0 : View sig .tc .vmem S1024x512 .f32 := scM0_0.view

/-- The scoped buffers region 0 never touches (the other region's staging buffers and accumulator), at some contents each, unopened. -/
def rest0 (c : Dev nD) : sProp 𝕄 :=
  Pipeline.scopedRestBut (Ix := Unit) (Name := ℕ) (U := UR sig nD τ) (Lvl := ℕ) (Val := Elt F) spec0 c [cc0_scratch0]

/-- What the region's invariant holds besides the windows: the accumulator at some contents, the untouched scoped buffers, the generator register. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0
  rw [Pipeline.scopedRest_split_of_list spec0 c [cc0_scratch0] (by decide) (by decide)]
  simp only [scM0_0, owns_whole]; try rfl

/-! ## Region 1: the branch conditions, where the output window is idle, the memrefs the body is called with -/

/-- The first branch of the body (the accumulator is zeroed): taken when the innermost grid coordinate is 0. -/
abbrev cond1_0 (i : grid1.Coords) : Prop := (Scalar.cmpi .ne (Scalar.extui (Scalar.cmpi .eq (BitVec.ofNat 32 (i 2).val) 0#32)) 0#32) = 1#1
/-- The grid is 1 × 8 × 4 row-major, so that is at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The last branch (the accumulator plus the bias is stored to the output block): taken when the innermost coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The five input windows are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- The output window is idle, and not written back, wherever the last branch is not taken; live where it is. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window, through which its contents are stated. -/
abbrev VO1_5 : View sig .tc .vmem S1024x512 .f32 := (Memref.whole cc1_stg5_0 : Memref sig .tc .vmem S1024x512 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from point to point. -/
abbrev scM1_0 : Memref sig .tc .vmem S1024x512 .f32 := Memref.whole cc1_scratch0
abbrev VS1_0 : View sig .tc .vmem S1024x512 .f32 := scM1_0.view

/-- The scoped buffers region 1 never touches (the other region's staging buffers and accumulator), at some contents each, unopened. -/
def rest1 (c : Dev nD) : sProp 𝕄 :=
  Pipeline.scopedRestBut (Ix := Unit) (Name := ℕ) (U := UR sig nD τ) (Lvl := ℕ) (Val := Elt F) spec1 c [cc1_scratch0]

/-- What the region's invariant holds besides the windows: the accumulator at some contents, the untouched scoped buffers, the generator register. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA rest1
  rw [Pipeline.scopedRest_split_of_list spec1 c [cc1_scratch0] (by decide) (by decide)]
  simp only [scM1_0, owns_whole]; try rfl

end Cert.Kernel.Hand

end
-- ==== Proof.KernelRun0A.lean ====
/-
  Region 0's body run whole, in one of the three cases its two branches make over the grid.
-/
import proofs.«167216_j48137993453602_2_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 0 run whole in the case where the innermost grid coordinate is 0: the accumulator is zeroed, then the two products are added to it; the output block is left alone. On whole memrefs holding the five input blocks, the output
    buffer and the accumulator, the body runs to its end with the inputs as they were and each buffer it stored into holding its
    stores as pieces over what it held; the pieces are found by running it. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_patch_matmul_kernel i arg3 harg3 arg4 harg4 arg5 harg5 arg6 harg6 arg7 harg7 arg8 harg8 arg9 harg9) K } := by
  refine ⟨[], ?_, fun xi5 E K => ?run⟩
  case run =>
    simp only [cc0__fused_patch_matmul_kernel_eq_skeleton]; unfold cc0__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KernelRun0B.lean ====
/-
  Region 0's body run whole, in one of the three cases its two branches make over the grid.
-/
import proofs.«167216_j48137993453602_2_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 0 run whole in the case where the innermost grid coordinate is 1 or 2: the two products are added to the accumulator the point before left; the output block is left alone. On whole memrefs holding the five input blocks, the output
    buffer and the accumulator, the body runs to its end with the inputs as they were and each buffer it stored into holding its
    stores as pieces over what it held; the pieces are found by running it. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_patch_matmul_kernel i arg3 harg3 arg4 harg4 arg5 harg5 arg6 harg6 arg7 harg7 arg8 harg8 arg9 harg9) K } := by
  refine ⟨[], ?_, fun xi5 E K => ?run⟩
  case run =>
    simp only [cc0__fused_patch_matmul_kernel_eq_skeleton]; unfold cc0__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KernelRun0C.lean ====
/-
  Region 0's body run whole, in one of the three cases its two branches make over the grid.
-/
import proofs.«167216_j48137993453602_2_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 0 run whole in the case where the innermost grid coordinate is 3: the two products are added to the accumulator, and the accumulator plus the bias row is stored to the output block. On whole memrefs holding the five input blocks, the output
    buffer and the accumulator, the body runs to its end with the inputs as they were and each buffer it stored into holding its
    stores as pieces over what it held; the pieces are found by running it. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__fused_patch_matmul_kernel i arg3 harg3 arg4 harg4 arg5 harg5 arg6 harg6 arg7 harg7 arg8 harg8 arg9 harg9) K } := by
  refine ⟨?_, ?_, fun E K => ?run⟩
  case run =>
    simp only [cc0__fused_patch_matmul_kernel_eq_skeleton]; unfold cc0__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.KernelRegion0.lean ====
/-
  Region 0 as a pipeline with a carried accumulator, at any contents `V` of the TensorCore's buffers when it is entered.
  The grid is 1 × 8 × 4: for each of the 8 column blocks of the result, four points walk the contraction axis; the first
  zeroes the accumulator and adds the two products of its slice, the next two add theirs, the fourth adds its own and stores
  the accumulator plus the bias row into the output block, which is written back there and only there.
-/
import proofs.«167216_j48137993453602_2_alg».proof.Proof.KernelRun0A
import proofs.«167216_j48137993453602_2_alg».proof.Proof.KernelRun0B
import proofs.«167216_j48137993453602_2_alg».proof.Proof.KernelRun0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered: the parameter its half is stated at
variable (V : (c : Dev nD) → (b : Ref sig .tc) → Buf (Elt F) ((c : Thread nD τ).loc b))

/-! # Region 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- In this case the stores into the accumulator cover it. -/
theorem scover0_A_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) (y : S1024x512.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S1024x512.size (by sl_kernel_rfl) y

/-- What the case leaves in the accumulator: its stores read back. -/
def sout0_A_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) : Vec F S1024x512 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- What the case leaves in the output block (nothing is stored: a placeholder nothing consults, the window being idle and not written back there). -/
def out0_A_5 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) : Vec F S1024x512 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- In this case the stores into the accumulator cover it. -/
theorem scover0_B_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x512.size (by sl_kernel_rfl) y

/-- What the case leaves in the accumulator: its stores read back. -/
def sout0_B_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- What the case leaves in the output block (nothing is stored: a placeholder nothing consults, the window being idle and not written back there). -/
def out0_B_5 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- In this case the stores into the accumulator cover it. -/
theorem scover0_C_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x512.size (by sl_kernel_rfl) y

/-- What the case leaves in the accumulator: its stores read back. -/
def sout0_C_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-- In the last case the store into the output block covers it. -/
theorem cover0_C_5 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1024x512.size (by sl_kernel_rfl) y

/-- What the case leaves in the output block: its store read back. -/
def out0_C_5 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-! ## What the output block and the accumulator hold after each point -/

/-- The pair (output block, accumulator) a point of the first case leaves: the case run on the point's memrefs and input blocks. -/
def pt0_A (c : Dev nD) (t : Fin cfg0.N) (h0 : t.val % 4 = 0) (h1 : ¬t.val % 4 = 3) : Vec F S1024x512 .f32 × Vec F S1024x512 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t))
/-- The same for a middle point, over the accumulator the point before left. -/
def pt0_B (c : Dev nD) (t : Fin cfg0.N) (h0 : ¬t.val % 4 = 0) (h1 : ¬t.val % 4 = 3) (xs0 : Vec F S1024x512 .f32) : Vec F S1024x512 .f32 × Vec F S1024x512 .f32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs0)
/-- The same for a last point of a run of four. -/
def pt0_C (c : Dev nD) (t : Fin cfg0.N) (h0 : ¬t.val % 4 = 0) (h1 : t.val % 4 = 3) (xs0 : Vec F S1024x512 .f32) : Vec F S1024x512 .f32 × Vec F S1024x512 .f32 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs0, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs0)

/-- THE ACCUMULATION: what the output block's staging buffer and the accumulator hold after the body at position `n`, by
    recursion on the position: the case its residue mod 4 selects, a later case over the accumulator the position before left. -/
def outsAt0 (c : Dev nD) : (n : ℕ) → n < cfg0.N → Vec F S1024x512 .f32 × Vec F S1024x512 .f32
  | 0, hn => pt0_A V c ⟨0, hn⟩ (Nat.zero_mod _) (by show ¬ (0 : ℕ) % 4 = 3; decide)
  | n + 1, hn =>
    if h0 : (n + 1) % 4 = 0 then pt0_A V c ⟨n + 1, hn⟩ h0 (by show ¬ (n + 1) % 4 = 3; omega)
    else if h1 : (n + 1) % 4 = 3 then pt0_C V c ⟨n + 1, hn⟩ h0 h1 (outsAt0 c n (Nat.lt_of_succ_lt hn)).2
    else pt0_B V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = pt0_A V c t h0 h1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 V c t.val t.isLt = pt0_B V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = pt0_C V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region's invariant before position `n`: before the first point the accumulator at anything; afterwards at what the
    point before left in it; beside it the scoped buffers the region never touches and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The region's proof data -/

/-- The arrays as the region finds them; after the body at a point each input's buffer at its block and the output's at the
    accumulation's first component; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the point's residue mod 4 says which case it is in; the invariant
    hands the body the accumulator at what the point before left (at anything at the first point) and takes it back at this point's
    contents, the stores covering it; at a last point of four the output block is taken back with its store covering it, elsewhere
    it is handed back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold pt0_A sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold pt0_C out0_C_5 sout0_C_0; (try dsimp only)
      have hz : t.val ≠ 0 := by omega
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ )
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold pt0_B sout0_B_0; (try dsimp only)
      have hz : t.val ≠ 0 := by omega
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, Hrest⟩, Hg⟩
  isplitl [HS0 Hrest]
  · isplitl [HS0]; · iexists _; iexact HS0
    iexact Hrest
  iexact Hg

end Region0

end Cert.Kernel.Hand

end
-- ==== Proof.KernelRun1A.lean ====
/-
  Region 1's body run whole, in one of the three cases its two branches make over the grid.
-/
import proofs.«167216_j48137993453602_2_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 1 run whole in the case where the innermost grid coordinate is 0: the accumulator is zeroed, then the two products are added to it; the output block is left alone. On whole memrefs holding the five input blocks, the output
    buffer and the accumulator, the body runs to its end with the inputs as they were and each buffer it stored into holding its
    stores as pieces over what it held; the pieces are found by running it. -/
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__fused_patch_matmul_kernel i arg3 harg3 arg4 harg4 arg5 harg5 arg6 harg6 arg7 harg7 arg8 harg8 arg9 harg9) K } := by
  refine ⟨[], ?_, fun xi5 E K => ?run⟩
  case run =>
    simp only [cc1__fused_patch_matmul_kernel_eq_skeleton]; unfold cc1__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KernelRun1B.lean ====
/-
  Region 1's body run whole, in one of the three cases its two branches make over the grid.
-/
import proofs.«167216_j48137993453602_2_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 1 run whole in the case where the innermost grid coordinate is 1 or 2: the two products are added to the accumulator the point before left; the output block is left alone. On whole memrefs holding the five input blocks, the output
    buffer and the accumulator, the body runs to its end with the inputs as they were and each buffer it stored into holding its
    stores as pieces over what it held; the pieces are found by running it. -/
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__fused_patch_matmul_kernel i arg3 harg3 arg4 harg4 arg5 harg5 arg6 harg6 arg7 harg7 arg8 harg8 arg9 harg9) K } := by
  refine ⟨[], ?_, fun xi5 E K => ?run⟩
  case run =>
    simp only [cc1__fused_patch_matmul_kernel_eq_skeleton]; unfold cc1__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KernelRun1C.lean ====
/-
  Region 1's body run whole, in one of the three cases its two branches make over the grid.
-/
import proofs.«167216_j48137993453602_2_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 1 run whole in the case where the innermost grid coordinate is 3: the two products are added to the accumulator, and the accumulator plus the bias row is stored to the output block. On whole memrefs holding the five input blocks, the output
    buffer and the accumulator, the body runs to its end with the inputs as they were and each buffer it stored into holding its
    stores as pieces over what it held; the pieces are found by running it. -/
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__fused_patch_matmul_kernel i arg3 harg3 arg4 harg4 arg5 harg5 arg6 harg6 arg7 harg7 arg8 harg8 arg9 harg9) K } := by
  refine ⟨?_, ?_, fun E K => ?run⟩
  case run =>
    simp only [cc1__fused_patch_matmul_kernel_eq_skeleton]; unfold cc1__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.KernelRegion1.lean ====
/-
  Region 1 as a pipeline with a carried accumulator, at any contents `V` of the TensorCore's buffers when it is entered.
  The grid is 1 × 8 × 4: for each of the 8 column blocks of the result, four points walk the contraction axis; the first
  zeroes the accumulator and adds the two products of its slice, the next two add theirs, the fourth adds its own and stores
  the accumulator plus the bias row into the output block, which is written back there and only there.
-/
import proofs.«167216_j48137993453602_2_alg».proof.Proof.KernelRun1A
import proofs.«167216_j48137993453602_2_alg».proof.Proof.KernelRun1B
import proofs.«167216_j48137993453602_2_alg».proof.Proof.KernelRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when region 1 is entered: the parameter its half is stated at
variable (V : (c : Dev nD) → (b : Ref sig .tc) → Buf (Elt F) ((c : Thread nD τ).loc b))

/-! # Region 1, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- In this case the stores into the accumulator cover it. -/
theorem scover1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) (y : S1024x512.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x512.size (by sl_kernel_rfl) y

/-- What the case leaves in the accumulator: its stores read back. -/
def sout1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) : Vec F S1024x512 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- What the case leaves in the output block (nothing is stored: a placeholder nothing consults, the window being idle and not written back there). -/
def out1_A_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) : Vec F S1024x512 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- In this case the stores into the accumulator cover it. -/
theorem scover1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x512.size (by sl_kernel_rfl) y

/-- What the case leaves in the accumulator: its stores read back. -/
def sout1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- What the case leaves in the output block (nothing is stored: a placeholder nothing consults, the window being idle and not written back there). -/
def out1_B_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- In this case the stores into the accumulator cover it. -/
theorem scover1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x512.size (by sl_kernel_rfl) y

/-- What the case leaves in the accumulator: its stores read back. -/
def sout1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-- In the last case the store into the output block covers it. -/
theorem cover1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x512.size (by sl_kernel_rfl) y

/-- What the case leaves in the output block: its store read back. -/
def out1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-! ## What the output block and the accumulator hold after each point -/

/-- The pair (output block, accumulator) a point of the first case leaves: the case run on the point's memrefs and input blocks. -/
def pt1_A (c : Dev nD) (t : Fin cfg1.N) (h0 : t.val % 4 = 0) (h1 : ¬t.val % 4 = 3) : Vec F S1024x512 .f32 × Vec F S1024x512 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
/-- The same for a middle point, over the accumulator the point before left. -/
def pt1_B (c : Dev nD) (t : Fin cfg1.N) (h0 : ¬t.val % 4 = 0) (h1 : ¬t.val % 4 = 3) (xs0 : Vec F S1024x512 .f32) : Vec F S1024x512 .f32 × Vec F S1024x512 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0)
/-- The same for a last point of a run of four. -/
def pt1_C (c : Dev nD) (t : Fin cfg1.N) (h0 : ¬t.val % 4 = 0) (h1 : t.val % 4 = 3) (xs0 : Vec F S1024x512 .f32) : Vec F S1024x512 .f32 × Vec F S1024x512 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0)

/-- THE ACCUMULATION: what the output block's staging buffer and the accumulator hold after the body at position `n`, by
    recursion on the position: the case its residue mod 4 selects, a later case over the accumulator the position before left. -/
def outsAt1 (c : Dev nD) : (n : ℕ) → n < cfg1.N → Vec F S1024x512 .f32 × Vec F S1024x512 .f32
  | 0, hn => pt1_A V c ⟨0, hn⟩ (Nat.zero_mod _) (by show ¬ (0 : ℕ) % 4 = 3; decide)
  | n + 1, hn =>
    if h0 : (n + 1) % 4 = 0 then pt1_A V c ⟨n + 1, hn⟩ h0 (by show ¬ (n + 1) % 4 = 3; omega)
    else if h1 : (n + 1) % 4 = 3 then pt1_C V c ⟨n + 1, hn⟩ h0 h1 (outsAt1 c n (Nat.lt_of_succ_lt hn)).2
    else pt1_B V c ⟨n + 1, hn⟩ h0 h1 (outsAt1 c n (Nat.lt_of_succ_lt hn)).2

theorem outsAt1_A (c : Dev nD) (t : Fin cfg1.N) (h0 : t.val % 4 = 0) (h1 : ¬t.val % 4 = 3) :
    outsAt1 V c t.val t.isLt = pt1_A V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = pt1_B V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = pt1_C V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region's invariant before position `n`: before the first point the accumulator at anything; afterwards at what the
    point before left in it; beside it the scoped buffers the region never touches and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The region's proof data -/

/-- The arrays as the region finds them; after the body at a point each input's buffer at its block and the output's at the
    accumulation's first component; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's residue mod 4 says which case it is in; the invariant
    hands the body the accumulator at what the point before left (at anything at the first point) and takes it back at this point's
    contents, the stores covering it; at a last point of four the output block is taken back with its store covering it, elsewhere
    it is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold pt1_A sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold pt1_C out1_C_5 sout1_C_0; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ )
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold pt1_B sout1_B_0; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, Hrest⟩, Hg⟩
  isplitl [HS0 Hrest]
  · isplitl [HS0]; · iexists _; iexact HS0
    iexact Hrest
  iexact Hg

end Region1

end Cert.Kernel.Hand

end
-- ==== Proof.KernelFrame.lean ====
/-
  The whole program as five segments — host operations, region 0, one host operation, region 1, host operations — run from the
  launch to the return, with the contents of every unscoped buffer named at each boundary: a host stretch applies its operations;
  a region leaves its input arrays as it found them and its output array at what its write-backs leave. No segment writes an
  argument array, so each ends as launched (the frame); the two results are read off the last boundary.
-/
import proofs.«167216_j48137993453602_2_alg».proof.Proof.KernelRegion0
import proofs.«167216_j48137993453602_2_alg».proof.Proof.KernelRegion1
import proofs.«167216_j48137993453602_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 (c : Dev nD) : Valuation τ sig (Elt F) := fun b => m (c, b)
/-- After the host operations before region 0. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b

/-- At region 0's exit: its arrays at what the pipeline leaves (the inputs as entered, the output's write-backs folded), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- Region 0 changes only its output's array: an input window's array ends as entered, and so does every buffer that is no window's array. -/
theorem W2_keep (c : Dev nD) (r : Ref sig .tc) (h : r ≠ main_v11) : W2 m c (Proc.devRef .tc r) = W1 m c (Proc.devRef .tc r) := by
  by_cases hw : ∃ w, Pipeline.arrRef spec0 w = r
  · obtain ⟨w, rfl⟩ := hw
    have key : ∀ w : Fin cfg0.W, (cfg0.win w).isOut = false →
        W2 m c (Proc.devRef .tc (Pipeline.arrRef spec0 w)) = W1 m c (Proc.devRef .tc (Pipeline.arrRef spec0 w)) :=
      fun w hw => (W2_arr m c w).trans (((dat0 (U1 m) c).arrAt_in w hw _).trans (A_eq0 (U1 m) c w))
    fin_cases w
    · exact key 0 rfl
    · exact key 1 rfl
    · exact key 2 rfl
    · exact key 3 rfl
    · exact key 4 rfl
    · exact absurd rfl h
  · exact W2_of_ne m c r fun w e => hw ⟨w, e⟩

/-- After the host operation between the regions. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b

/-- At region 1's exit: its arrays at what the pipeline leaves (the inputs as entered, the output's write-backs folded), every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- Region 1 changes only its output's array: an input window's array ends as entered, and so does every buffer that is no window's array. -/
theorem W4_keep (c : Dev nD) (r : Ref sig .tc) (h : r ≠ main_v13) : W4 m c (Proc.devRef .tc r) = W3 m c (Proc.devRef .tc r) := by
  by_cases hw : ∃ w, Pipeline.arrRef spec1 w = r
  · obtain ⟨w, rfl⟩ := hw
    have key : ∀ w : Fin cfg1.W, (cfg1.win w).isOut = false →
        W4 m c (Proc.devRef .tc (Pipeline.arrRef spec1 w)) = W3 m c (Proc.devRef .tc (Pipeline.arrRef spec1 w)) :=
      fun w hw => (W4_arr m c w).trans (((dat1 (U3 m) c).arrAt_in w hw _).trans (A_eq1 (U3 m) c w))
    fin_cases w
    · exact key 0 rfl
    · exact key 1 rfl
    · exact key 2 rfl
    · exact key 3 rfl
    · exact key 4 rfl
    · exact absurd rfl h
  · exact W4_of_ne m c r fun w e => hw ⟨w, e⟩

/-- After the host operations behind region 1: the contents at the return. -/
abbrev W5 (c : Dev nD) : Valuation τ sig (Elt F) := StableHlo.after hostOps2 (W4 m c)

/-- A buffer no host operation writes and no region changes holds at the return what it held at launch. -/
theorem W5_keep (c : Dev nD) (r : Ref sig .tc) (h0 : r ∉ hostOps0_W) (h1 : r ∉ hostOps1_W) (h2 : r ∉ hostOps2_W)
    (h11 : r ≠ main_v11) (h13 : r ≠ main_v13) : W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_keep m c r h13
    _ = W2 m c (Proc.devRef .tc r) := StableHlo.after_of_writes_sub hostOps1 _ hostOps1_writes h1
    _ = W1 m c (Proc.devRef .tc r) := W2_keep m c r h11
    _ = W0 m c (Proc.devRef .tc r) := StableHlo.after_of_writes_sub hostOps0 _ hostOps0_writes h0
    _ = m ((c : Thread nD τ).loc r) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register at some state. -/
abbrev Tlast (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the contents before it, left with its arrays at what
    its write-backs leave and every other buffer as entered. Its arrays are split out of the unscoped buffers and put back; the
    generator register goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m) c)
    unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its arrays at what
    its write-backs leave and every other buffer as entered. Its arrays are split out of the unscoped buffers and put back; the
    generator register goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U3 m) c)
    unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsAll : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segsAll m) := (main_chain c).trans (by chain_rfl)

set_option backward.isDefEq.respectTransparency.types false in
/-- THE RUN: from any memory with zero counters, every weakly fair execution of the program on the TensorCores terminates, nothing
    faulting, and every final state holds every unscoped buffer at the return's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segsAll m)
    (fun c Q => by rw [main_run m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: the program runs to its end, nothing faulting, and its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W5_keep m c main_arg0 (by decide) (by decide) (by decide) (by decide) (by decide)),
    (h c _ (mem_uc main_arg1 (by decide))).trans (W5_keep m c main_arg1 (by decide) (by decide) (by decide) (by decide) (by decide)),
    (h c _ (mem_uc main_arg2 (by decide))).trans (W5_keep m c main_arg2 (by decide) (by decide) (by decide) (by decide) (by decide)),
    (h c _ (mem_uc main_arg3 (by decide))).trans (W5_keep m c main_arg3 (by decide) (by decide) (by decide) (by decide) (by decide)),
    (h c _ (mem_uc main_arg4 (by decide))).trans (W5_keep m c main_arg4 (by decide) (by decide) (by decide) (by decide) (by decide)),
    (h c _ (mem_uc main_arg5 (by decide))).trans (W5_keep m c main_arg5 (by decide) (by decide) (by decide) (by decide) (by decide)),
    (h c _ (mem_uc main_arg6 (by decide))).trans (W5_keep m c main_arg6 (by decide) (by decide) (by decide) (by decide) (by decide)),
    (h c _ (mem_uc main_arg7 (by decide))).trans (W5_keep m c main_arg7 (by decide) (by decide) (by decide) (by decide) (by decide)),
    (h c _ (mem_uc main_arg8 (by decide))).trans (W5_keep m c main_arg8 (by decide) (by decide) (by decide) (by decide) (by decide)),
    (h c _ (mem_uc main_arg9 (by decide))).trans (W5_keep m c main_arg9 (by decide) (by decide) (by decide) (by decide) (by decide))⟩)
    (run_all m ρ)

end Cert.Kernel.Hand

end
-- ==== Proof.KernelIdealBase.lean ====
/-
  What the two regions' bodies are run against: for each of the two fused matrix-product calls, the two branch conditions
  of its body decided over the 1 × 8 × 4 grid (the accumulator is zeroed where the innermost coordinate is 0, the output
  block is stored where it is 3), where the output window is idle, the memrefs the body is called with at a point, and
  what the region's invariant holds besides the windows.
-/
import proofs.«167216_j48137993453602_2_alg».proof.Proof.Gen.KernelIdeal.Launch
import proofs.«167216_j48137993453602_2_alg».proof.Proof.Gen.KernelIdeal.Skeleton
import proofs.«167216_j48137993453602_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the branch conditions, where the output window is idle, the memrefs the body is called with -/

/-- The first branch of the body (the accumulator is zeroed): taken when the innermost grid coordinate is 0. -/
abbrev cond0_0 (i : grid0.Coords) : Prop := (Scalar.cmpi .ne (Scalar.extui (Scalar.cmpi .eq (BitVec.ofNat 32 (i 2).val) 0#32)) 0#32) = 1#1
/-- The grid is 1 × 8 × 4 row-major, so that is at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The last branch (the accumulator plus the bias is stored to the output block): taken when the innermost coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The five input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The output window is idle, and not written back, wherever the last branch is not taken; live where it is. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-- One staging buffer of the output window, through which its contents are stated. -/
abbrev VO0_5 : View sig .tc .vmem S1024x512 .f32 := (Memref.whole cc0_stg5_0 : Memref sig .tc .vmem S1024x512 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S1024x512 .f32 := Memref.whole cc0_scratch0
abbrev VS0_0 : View sig .tc .vmem S1024x512 .f32 := scM0_0.view

/-- The scoped buffers region 0 never touches (the other region's staging buffers and accumulator), at some contents each, unopened. -/
def rest0 (c : Dev nD) : sProp 𝕄 :=
  Pipeline.scopedRestBut (Ix := Unit) (Name := ℕ) (U := UR sig nD τ) (Lvl := ℕ) (Val := Elt F) spec0 c [cc0_scratch0]

/-- What the region's invariant holds besides the windows: the accumulator at some contents, the untouched scoped buffers, the generator register. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0
  rw [Pipeline.scopedRest_split_of_list spec0 c [cc0_scratch0] (by decide) (by decide)]
  simp only [scM0_0, owns_whole]; try rfl

/-! ## Region 1: the branch conditions, where the output window is idle, the memrefs the body is called with -/

/-- The first branch of the body (the accumulator is zeroed): taken when the innermost grid coordinate is 0. -/
abbrev cond1_0 (i : grid1.Coords) : Prop := (Scalar.cmpi .ne (Scalar.extui (Scalar.cmpi .eq (BitVec.ofNat 32 (i 2).val) 0#32)) 0#32) = 1#1
/-- The grid is 1 × 8 × 4 row-major, so that is at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The last branch (the accumulator plus the bias is stored to the output block): taken when the innermost coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The five input windows are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- The output window is idle, and not written back, wherever the last branch is not taken; live where it is. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window, through which its contents are stated. -/
abbrev VO1_5 : View sig .tc .vmem S1024x512 .f32 := (Memref.whole cc1_stg5_0 : Memref sig .tc .vmem S1024x512 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from point to point. -/
abbrev scM1_0 : Memref sig .tc .vmem S1024x512 .f32 := Memref.whole cc1_scratch0
abbrev VS1_0 : View sig .tc .vmem S1024x512 .f32 := scM1_0.view

/-- The scoped buffers region 1 never touches (the other region's staging buffers and accumulator), at some contents each, unopened. -/
def rest1 (c : Dev nD) : sProp 𝕄 :=
  Pipeline.scopedRestBut (Ix := Unit) (Name := ℕ) (U := UR sig nD τ) (Lvl := ℕ) (Val := Elt F) spec1 c [cc1_scratch0]

/-- What the region's invariant holds besides the windows: the accumulator at some contents, the untouched scoped buffers, the generator register. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA rest1
  rw [Pipeline.scopedRest_split_of_list spec1 c [cc1_scratch0] (by decide) (by decide)]
  simp only [scM1_0, owns_whole]; try rfl

end Cert.KernelIdeal.Hand

end
-- ==== Proof.KernelIdealRun0A.lean ====
/-
  Region 0's body run whole, in one of the three cases its two branches make over the grid.
-/
import proofs.«167216_j48137993453602_2_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 0 run whole in the case where the innermost grid coordinate is 0: the accumulator is zeroed, then the two products are added to it; the output block is left alone. On whole memrefs holding the five input blocks, the output
    buffer and the accumulator, the body runs to its end with the inputs as they were and each buffer it stored into holding its
    stores as pieces over what it held; the pieces are found by running it. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_patch_matmul_kernel i arg3 harg3 arg4 harg4 arg5 harg5 arg6 harg6 arg7 harg7 arg8 harg8 arg9 harg9) K } := by
  refine ⟨[], ?_, fun xi5 E K => ?run⟩
  case run =>
    simp only [cc0__fused_patch_matmul_kernel_eq_skeleton]; unfold cc0__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdealRun0B.lean ====
/-
  Region 0's body run whole, in one of the three cases its two branches make over the grid.
-/
import proofs.«167216_j48137993453602_2_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 0 run whole in the case where the innermost grid coordinate is 1 or 2: the two products are added to the accumulator the point before left; the output block is left alone. On whole memrefs holding the five input blocks, the output
    buffer and the accumulator, the body runs to its end with the inputs as they were and each buffer it stored into holding its
    stores as pieces over what it held; the pieces are found by running it. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_patch_matmul_kernel i arg3 harg3 arg4 harg4 arg5 harg5 arg6 harg6 arg7 harg7 arg8 harg8 arg9 harg9) K } := by
  refine ⟨[], ?_, fun xi5 E K => ?run⟩
  case run =>
    simp only [cc0__fused_patch_matmul_kernel_eq_skeleton]; unfold cc0__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdealRun0C.lean ====
/-
  Region 0's body run whole, in one of the three cases its two branches make over the grid.
-/
import proofs.«167216_j48137993453602_2_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 0 run whole in the case where the innermost grid coordinate is 3: the two products are added to the accumulator, and the accumulator plus the bias row is stored to the output block. On whole memrefs holding the five input blocks, the output
    buffer and the accumulator, the body runs to its end with the inputs as they were and each buffer it stored into holding its
    stores as pieces over what it held; the pieces are found by running it. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__fused_patch_matmul_kernel i arg3 harg3 arg4 harg4 arg5 harg5 arg6 harg6 arg7 harg7 arg8 harg8 arg9 harg9) K } := by
  refine ⟨?_, ?_, fun E K => ?run⟩
  case run =>
    simp only [cc0__fused_patch_matmul_kernel_eq_skeleton]; unfold cc0__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KernelIdealRegion0.lean ====
/-
  Region 0 as a pipeline with a carried accumulator, at any contents `V` of the TensorCore's buffers when it is entered.
  The grid is 1 × 8 × 4: for each of the 8 column blocks of the result, four points walk the contraction axis; the first
  zeroes the accumulator and adds the two products of its slice, the next two add theirs, the fourth adds its own and stores
  the accumulator plus the bias row into the output block, which is written back there and only there.
-/
import proofs.«167216_j48137993453602_2_alg».proof.Proof.KernelIdealRun0A
import proofs.«167216_j48137993453602_2_alg».proof.Proof.KernelIdealRun0B
import proofs.«167216_j48137993453602_2_alg».proof.Proof.KernelIdealRun0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered: the parameter its half is stated at
variable (V : (c : Dev nD) → (b : Ref sig .tc) → Buf (Elt F) ((c : Thread nD τ).loc b))

/-! # Region 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- In this case the stores into the accumulator cover it. -/
theorem scover0_A_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) (y : S1024x512.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S1024x512.size (by sl_kernel_rfl) y

/-- What the case leaves in the accumulator: its stores read back. -/
def sout0_A_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) : Vec F S1024x512 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- What the case leaves in the output block (nothing is stored: a placeholder nothing consults, the window being idle and not written back there). -/
def out0_A_5 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) : Vec F S1024x512 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- In this case the stores into the accumulator cover it. -/
theorem scover0_B_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x512.size (by sl_kernel_rfl) y

/-- What the case leaves in the accumulator: its stores read back. -/
def sout0_B_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- What the case leaves in the output block (nothing is stored: a placeholder nothing consults, the window being idle and not written back there). -/
def out0_B_5 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- In this case the stores into the accumulator cover it. -/
theorem scover0_C_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x512.size (by sl_kernel_rfl) y

/-- What the case leaves in the accumulator: its stores read back. -/
def sout0_C_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-- In the last case the store into the output block covers it. -/
theorem cover0_C_5 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1024x512.size (by sl_kernel_rfl) y

/-- What the case leaves in the output block: its store read back. -/
def out0_C_5 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-! ## What the output block and the accumulator hold after each point -/

/-- The pair (output block, accumulator) a point of the first case leaves: the case run on the point's memrefs and input blocks. -/
def pt0_A (c : Dev nD) (t : Fin cfg0.N) (h0 : t.val % 4 = 0) (h1 : ¬t.val % 4 = 3) : Vec F S1024x512 .f32 × Vec F S1024x512 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t))
/-- The same for a middle point, over the accumulator the point before left. -/
def pt0_B (c : Dev nD) (t : Fin cfg0.N) (h0 : ¬t.val % 4 = 0) (h1 : ¬t.val % 4 = 3) (xs0 : Vec F S1024x512 .f32) : Vec F S1024x512 .f32 × Vec F S1024x512 .f32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs0)
/-- The same for a last point of a run of four. -/
def pt0_C (c : Dev nD) (t : Fin cfg0.N) (h0 : ¬t.val % 4 = 0) (h1 : t.val % 4 = 3) (xs0 : Vec F S1024x512 .f32) : Vec F S1024x512 .f32 × Vec F S1024x512 .f32 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs0, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs0)

/-- THE ACCUMULATION: what the output block's staging buffer and the accumulator hold after the body at position `n`, by
    recursion on the position: the case its residue mod 4 selects, a later case over the accumulator the position before left. -/
def outsAt0 (c : Dev nD) : (n : ℕ) → n < cfg0.N → Vec F S1024x512 .f32 × Vec F S1024x512 .f32
  | 0, hn => pt0_A V c ⟨0, hn⟩ (Nat.zero_mod _) (by show ¬ (0 : ℕ) % 4 = 3; decide)
  | n + 1, hn =>
    if h0 : (n + 1) % 4 = 0 then pt0_A V c ⟨n + 1, hn⟩ h0 (by show ¬ (n + 1) % 4 = 3; omega)
    else if h1 : (n + 1) % 4 = 3 then pt0_C V c ⟨n + 1, hn⟩ h0 h1 (outsAt0 c n (Nat.lt_of_succ_lt hn)).2
    else pt0_B V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = pt0_A V c t h0 h1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 V c t.val t.isLt = pt0_B V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = pt0_C V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region's invariant before position `n`: before the first point the accumulator at anything; afterwards at what the
    point before left in it; beside it the scoped buffers the region never touches and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The region's proof data -/

/-- The arrays as the region finds them; after the body at a point each input's buffer at its block and the output's at the
    accumulation's first component; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the point's residue mod 4 says which case it is in; the invariant
    hands the body the accumulator at what the point before left (at anything at the first point) and takes it back at this point's
    contents, the stores covering it; at a last point of four the output block is taken back with its store covering it, elsewhere
    it is handed back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold pt0_A sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold pt0_C out0_C_5 sout0_C_0; (try dsimp only)
      have hz : t.val ≠ 0 := by omega
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ )
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold pt0_B sout0_B_0; (try dsimp only)
      have hz : t.val ≠ 0 := by omega
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, Hrest⟩, Hg⟩
  isplitl [HS0 Hrest]
  · isplitl [HS0]; · iexists _; iexact HS0
    iexact Hrest
  iexact Hg

end Region0

end Cert.KernelIdeal.Hand

end
-- ==== Proof.KernelIdealRun1A.lean ====
/-
  Region 1's body run whole, in one of the three cases its two branches make over the grid.
-/
import proofs.«167216_j48137993453602_2_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 1 run whole in the case where the innermost grid coordinate is 0: the accumulator is zeroed, then the two products are added to it; the output block is left alone. On whole memrefs holding the five input blocks, the output
    buffer and the accumulator, the body runs to its end with the inputs as they were and each buffer it stored into holding its
    stores as pieces over what it held; the pieces are found by running it. -/
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__fused_patch_matmul_kernel i arg3 harg3 arg4 harg4 arg5 harg5 arg6 harg6 arg7 harg7 arg8 harg8 arg9 harg9) K } := by
  refine ⟨[], ?_, fun xi5 E K => ?run⟩
  case run =>
    simp only [cc1__fused_patch_matmul_kernel_eq_skeleton]; unfold cc1__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdealRun1B.lean ====
/-
  Region 1's body run whole, in one of the three cases its two branches make over the grid.
-/
import proofs.«167216_j48137993453602_2_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 1 run whole in the case where the innermost grid coordinate is 1 or 2: the two products are added to the accumulator the point before left; the output block is left alone. On whole memrefs holding the five input blocks, the output
    buffer and the accumulator, the body runs to its end with the inputs as they were and each buffer it stored into holding its
    stores as pieces over what it held; the pieces are found by running it. -/
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__fused_patch_matmul_kernel i arg3 harg3 arg4 harg4 arg5 harg5 arg6 harg6 arg7 harg7 arg8 harg8 arg9 harg9) K } := by
  refine ⟨[], ?_, fun xi5 E K => ?run⟩
  case run =>
    simp only [cc1__fused_patch_matmul_kernel_eq_skeleton]; unfold cc1__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdealRun1C.lean ====
/-
  Region 1's body run whole, in one of the three cases its two branches make over the grid.
-/
import proofs.«167216_j48137993453602_2_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of region 1 run whole in the case where the innermost grid coordinate is 3: the two products are added to the accumulator, and the accumulator plus the bias row is stored to the output block. On whole memrefs holding the five input blocks, the output
    buffer and the accumulator, the body runs to its end with the inputs as they were and each buffer it stored into holding its
    stores as pieces over what it held; the pieces are found by running it. -/
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__fused_patch_matmul_kernel i arg3 harg3 arg4 harg4 arg5 harg5 arg6 harg6 arg7 harg7 arg8 harg8 arg9 harg9) K } := by
  refine ⟨?_, ?_, fun E K => ?run⟩
  case run =>
    simp only [cc1__fused_patch_matmul_kernel_eq_skeleton]; unfold cc1__fused_patch_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KernelIdealRegion1.lean ====
/-
  Region 1 as a pipeline with a carried accumulator, at any contents `V` of the TensorCore's buffers when it is entered.
  The grid is 1 × 8 × 4: for each of the 8 column blocks of the result, four points walk the contraction axis; the first
  zeroes the accumulator and adds the two products of its slice, the next two add theirs, the fourth adds its own and stores
  the accumulator plus the bias row into the output block, which is written back there and only there.
-/
import proofs.«167216_j48137993453602_2_alg».proof.Proof.KernelIdealRun1A
import proofs.«167216_j48137993453602_2_alg».proof.Proof.KernelIdealRun1B
import proofs.«167216_j48137993453602_2_alg».proof.Proof.KernelIdealRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when region 1 is entered: the parameter its half is stated at
variable (V : (c : Dev nD) → (b : Ref sig .tc) → Buf (Elt F) ((c : Thread nD τ).loc b))

/-! # Region 1, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- In this case the stores into the accumulator cover it. -/
theorem scover1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) (y : S1024x512.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x512.size (by sl_kernel_rfl) y

/-- What the case leaves in the accumulator: its stores read back. -/
def sout1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) : Vec F S1024x512 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- What the case leaves in the output block (nothing is stored: a placeholder nothing consults, the window being idle and not written back there). -/
def out1_A_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) : Vec F S1024x512 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- In this case the stores into the accumulator cover it. -/
theorem scover1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x512.size (by sl_kernel_rfl) y

/-- What the case leaves in the accumulator: its stores read back. -/
def sout1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- What the case leaves in the output block (nothing is stored: a placeholder nothing consults, the window being idle and not written back there). -/
def out1_B_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- In this case the stores into the accumulator cover it. -/
theorem scover1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x512.size (by sl_kernel_rfl) y

/-- What the case leaves in the accumulator: its stores read back. -/
def sout1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-- In the last case the store into the output block covers it. -/
theorem cover1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) (y : S1024x512.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x512.size (by sl_kernel_rfl) y

/-- What the case leaves in the output block: its store read back. -/
def out1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) : Vec F S1024x512 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-! ## What the output block and the accumulator hold after each point -/

/-- The pair (output block, accumulator) a point of the first case leaves: the case run on the point's memrefs and input blocks. -/
def pt1_A (c : Dev nD) (t : Fin cfg1.N) (h0 : t.val % 4 = 0) (h1 : ¬t.val % 4 = 3) : Vec F S1024x512 .f32 × Vec F S1024x512 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
/-- The same for a middle point, over the accumulator the point before left. -/
def pt1_B (c : Dev nD) (t : Fin cfg1.N) (h0 : ¬t.val % 4 = 0) (h1 : ¬t.val % 4 = 3) (xs0 : Vec F S1024x512 .f32) : Vec F S1024x512 .f32 × Vec F S1024x512 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0)
/-- The same for a last point of a run of four. -/
def pt1_C (c : Dev nD) (t : Fin cfg1.N) (h0 : ¬t.val % 4 = 0) (h1 : t.val % 4 = 3) (xs0 : Vec F S1024x512 .f32) : Vec F S1024x512 .f32 × Vec F S1024x512 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0)

/-- THE ACCUMULATION: what the output block's staging buffer and the accumulator hold after the body at position `n`, by
    recursion on the position: the case its residue mod 4 selects, a later case over the accumulator the position before left. -/
def outsAt1 (c : Dev nD) : (n : ℕ) → n < cfg1.N → Vec F S1024x512 .f32 × Vec F S1024x512 .f32
  | 0, hn => pt1_A V c ⟨0, hn⟩ (Nat.zero_mod _) (by show ¬ (0 : ℕ) % 4 = 3; decide)
  | n + 1, hn =>
    if h0 : (n + 1) % 4 = 0 then pt1_A V c ⟨n + 1, hn⟩ h0 (by show ¬ (n + 1) % 4 = 3; omega)
    else if h1 : (n + 1) % 4 = 3 then pt1_C V c ⟨n + 1, hn⟩ h0 h1 (outsAt1 c n (Nat.lt_of_succ_lt hn)).2
    else pt1_B V c ⟨n + 1, hn⟩ h0 h1 (outsAt1 c n (Nat.lt_of_succ_lt hn)).2

theorem outsAt1_A (c : Dev nD) (t : Fin cfg1.N) (h0 : t.val % 4 = 0) (h1 : ¬t.val % 4 = 3) :
    outsAt1 V c t.val t.isLt = pt1_A V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = pt1_B V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = pt1_C V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region's invariant before position `n`: before the first point the accumulator at anything; afterwards at what the
    point before left in it; beside it the scoped buffers the region never touches and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The region's proof data -/

/-- The arrays as the region finds them; after the body at a point each input's buffer at its block and the output's at the
    accumulation's first component; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's residue mod 4 says which case it is in; the invariant
    hands the body the accumulator at what the point before left (at anything at the first point) and takes it back at this point's
    contents, the stores covering it; at a last point of four the output block is taken back with its store covering it, elsewhere
    it is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold pt1_A sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold pt1_C out1_C_5 sout1_C_0; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ )
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold pt1_B sout1_B_0; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, Hrest⟩, Hg⟩
  isplitl [HS0 Hrest]
  · isplitl [HS0]; · iexists _; iexact HS0
    iexact Hrest
  iexact Hg

end Region1

end Cert.KernelIdeal.Hand

end
-- ==== Proof.KernelIdealFrame.lean ====
/-
  The whole program as five segments — host operations, region 0, one host operation, region 1, host operations — run from the
  launch to the return, with the contents of every unscoped buffer named at each boundary: a host stretch applies its operations;
  a region leaves its input arrays as it found them and its output array at what its write-backs leave. No segment writes an
  argument array, so each ends as launched (the frame); the two results are read off the last boundary.
-/
import proofs.«167216_j48137993453602_2_alg».proof.Proof.KernelIdealRegion0
import proofs.«167216_j48137993453602_2_alg».proof.Proof.KernelIdealRegion1
import proofs.«167216_j48137993453602_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 (c : Dev nD) : Valuation τ sig (Elt F) := fun b => m (c, b)
/-- After the host operations before region 0. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b

/-- At region 0's exit: its arrays at what the pipeline leaves (the inputs as entered, the output's write-backs folded), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- Region 0 changes only its output's array: an input window's array ends as entered, and so does every buffer that is no window's array. -/
theorem W2_keep (c : Dev nD) (r : Ref sig .tc) (h : r ≠ main_v11) : W2 m c (Proc.devRef .tc r) = W1 m c (Proc.devRef .tc r) := by
  by_cases hw : ∃ w, Pipeline.arrRef spec0 w = r
  · obtain ⟨w, rfl⟩ := hw
    have key : ∀ w : Fin cfg0.W, (cfg0.win w).isOut = false →
        W2 m c (Proc.devRef .tc (Pipeline.arrRef spec0 w)) = W1 m c (Proc.devRef .tc (Pipeline.arrRef spec0 w)) :=
      fun w hw => (W2_arr m c w).trans (((dat0 (U1 m) c).arrAt_in w hw _).trans (A_eq0 (U1 m) c w))
    fin_cases w
    · exact key 0 rfl
    · exact key 1 rfl
    · exact key 2 rfl
    · exact key 3 rfl
    · exact key 4 rfl
    · exact absurd rfl h
  · exact W2_of_ne m c r fun w e => hw ⟨w, e⟩

/-- After the host operation between the regions. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b

/-- At region 1's exit: its arrays at what the pipeline leaves (the inputs as entered, the output's write-backs folded), every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- Region 1 changes only its output's array: an input window's array ends as entered, and so does every buffer that is no window's array. -/
theorem W4_keep (c : Dev nD) (r : Ref sig .tc) (h : r ≠ main_v13) : W4 m c (Proc.devRef .tc r) = W3 m c (Proc.devRef .tc r) := by
  by_cases hw : ∃ w, Pipeline.arrRef spec1 w = r
  · obtain ⟨w, rfl⟩ := hw
    have key : ∀ w : Fin cfg1.W, (cfg1.win w).isOut = false →
        W4 m c (Proc.devRef .tc (Pipeline.arrRef spec1 w)) = W3 m c (Proc.devRef .tc (Pipeline.arrRef spec1 w)) :=
      fun w hw => (W4_arr m c w).trans (((dat1 (U3 m) c).arrAt_in w hw _).trans (A_eq1 (U3 m) c w))
    fin_cases w
    · exact key 0 rfl
    · exact key 1 rfl
    · exact key 2 rfl
    · exact key 3 rfl
    · exact key 4 rfl
    · exact absurd rfl h
  · exact W4_of_ne m c r fun w e => hw ⟨w, e⟩

/-- After the host operations behind region 1: the contents at the return. -/
abbrev W5 (c : Dev nD) : Valuation τ sig (Elt F) := StableHlo.after hostOps2 (W4 m c)

/-- A buffer no host operation writes and no region changes holds at the return what it held at launch. -/
theorem W5_keep (c : Dev nD) (r : Ref sig .tc) (h0 : r ∉ hostOps0_W) (h1 : r ∉ hostOps1_W) (h2 : r ∉ hostOps2_W)
    (h11 : r ≠ main_v11) (h13 : r ≠ main_v13) : W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_keep m c r h13
    _ = W2 m c (Proc.devRef .tc r) := StableHlo.after_of_writes_sub hostOps1 _ hostOps1_writes h1
    _ = W1 m c (Proc.devRef .tc r) := W2_keep m c r h11
    _ = W0 m c (Proc.devRef .tc r) := StableHlo.after_of_writes_sub hostOps0 _ hostOps0_writes h0
    _ = m ((c : Thread nD τ).loc r) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register at some state. -/
abbrev Tlast (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the contents before it, left with its arrays at what
    its write-backs leave and every other buffer as entered. Its arrays are split out of the unscoped buffers and put back; the
    generator register goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m) c)
    unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its arrays at what
    its write-backs leave and every other buffer as entered. Its arrays are split out of the unscoped buffers and put back; the
    generator register goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U3 m) c)
    unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsAll : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segsAll m) := (main_chain c).trans (by chain_rfl)

set_option backward.isDefEq.respectTransparency.types false in
/-- THE RUN: from any memory with zero counters, every weakly fair execution of the program on the TensorCores terminates, nothing
    faulting, and every final state holds every unscoped buffer at the return's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segsAll m)
    (fun c Q => by rw [main_run m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: the program runs to its end, nothing faulting, and its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W5_keep m c main_arg0 (by decide) (by decide) (by decide) (by decide) (by decide)),
    (h c _ (mem_uc main_arg1 (by decide))).trans (W5_keep m c main_arg1 (by decide) (by decide) (by decide) (by decide) (by decide)),
    (h c _ (mem_uc main_arg2 (by decide))).trans (W5_keep m c main_arg2 (by decide) (by decide) (by decide) (by decide) (by decide)),
    (h c _ (mem_uc main_arg3 (by decide))).trans (W5_keep m c main_arg3 (by decide) (by decide) (by decide) (by decide) (by decide)),
    (h c _ (mem_uc main_arg4 (by decide))).trans (W5_keep m c main_arg4 (by decide) (by decide) (by decide) (by decide) (by decide)),
    (h c _ (mem_uc main_arg5 (by decide))).trans (W5_keep m c main_arg5 (by decide) (by decide) (by decide) (by decide) (by decide)),
    (h c _ (mem_uc main_arg6 (by decide))).trans (W5_keep m c main_arg6 (by decide) (by decide) (by decide) (by decide) (by decide)),
    (h c _ (mem_uc main_arg7 (by decide))).trans (W5_keep m c main_arg7 (by decide) (by decide) (by decide) (by decide) (by decide)),
    (h c _ (mem_uc main_arg8 (by decide))).trans (W5_keep m c main_arg8 (by decide) (by decide) (by decide) (by decide) (by decide)),
    (h c _ (mem_uc main_arg9 (by decide))).trans (W5_keep m c main_arg9 (by decide) (by decide) (by decide) (by decide) (by decide))⟩)
    (run_all m ρ)

end Cert.KernelIdeal.Hand

end
-- ==== Proof.KernelIdealPieces.lean ====
/-
  What the body's stores leave, read as values: in every case the accumulator ends at the second product added to the first
  product added to what it held (zero, where the first branch zeroed it), and at a last point the output block ends at that
  accumulator plus the bias row — each a payload of the skeleton applied to the blocks the body loaded.
-/
import proofs.«167216_j48137993453602_2_alg».proof.Proof.KernelIdealRegion0
import proofs.«167216_j48137993453602_2_alg».proof.Proof.KernelIdealRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A load of the whole buffer after a list of stores whose LAST one was a store of the whole buffer reads that store's value. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## Region 0: what each case's stores leave, as the body's payloads of the blocks it loaded -/

theorem sout0_A_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S1024x1024 .f32) (x2 : Vec F S512x1024 .f32) (x3 : Vec F S512x1024 .f32) (x4 : Vec F S1x512 .f32) :
    sout0_A_0 c i arg3 harg3 arg4 harg4 arg5 harg5 arg6 harg6 arg7 harg7 arg8 harg8 arg9 harg9 hc0 hc1 x0 x1 x2 x3 x4 = k0_pay3 x1 x3 (k0_pay2 x0 x2 (k0_pay1 (F := F))) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A; dsimp only
  sl_unfold_words
  rw [View.canon_cons_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S1024x512) hz, View.ld_unit_zero (S := S1x512) hz,
    readCov_cons_unit_zero (S := S1024x512) _ hz]

theorem sout0_B_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    sout0_B_0 c i arg3 harg3 arg4 harg4 arg5 harg5 arg6 harg6 arg7 harg7 arg8 harg8 arg9 harg9 hc0 hc1 x0 x1 x2 x3 x4 xs0 = k0_pay3 x1 x3 (k0_pay2 x0 x2 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B; dsimp only
  sl_unfold_words
  rw [View.canon_cons_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S1024x512) hz, View.ld_unit_zero (S := S1x512) hz,
    readCov_cons_unit_zero (S := S1024x512) _ hz]

theorem sout0_C_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    sout0_C_0 c i arg3 harg3 arg4 harg4 arg5 harg5 arg6 harg6 arg7 harg7 arg8 harg8 arg9 harg9 hc0 hc1 x0 x1 x2 x3 x4 xs0 = k0_pay3 x1 x3 (k0_pay2 x0 x2 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C; dsimp only
  sl_unfold_words
  rw [View.canon_cons_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S1024x512) hz, View.ld_unit_zero (S := S1x512) hz,
    readCov_cons_unit_zero (S := S1024x512) _ hz]

theorem out0_C_5_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    out0_C_5 c i arg3 harg3 arg4 harg4 arg5 harg5 arg6 harg6 arg7 harg7 arg8 harg8 arg9 harg9 hc0 hc1 x0 x1 x2 x3 x4 xs0 = k0_pay4 (k0_pay3 x1 x3 (k0_pay2 x0 x2 xs0)) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C; dsimp only
  sl_unfold_words
  rw [View.canon_cons_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S1024x512) hz, View.ld_unit_zero (S := S1x512) hz,
    readCov_cons_unit_zero (S := S1024x512) _ hz]

/-! ## Region 1: what each case's stores leave, as the body's payloads of the blocks it loaded -/

theorem sout1_A_0_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1024 .f32) (x1 : Vec F S1024x1024 .f32) (x2 : Vec F S512x1024 .f32) (x3 : Vec F S512x1024 .f32) (x4 : Vec F S1x512 .f32) :
    sout1_A_0 c i arg3 harg3 arg4 harg4 arg5 harg5 arg6 harg6 arg7 harg7 arg8 harg8 arg9 harg9 hc0 hc1 x0 x1 x2 x3 x4 = k1_pay3 x1 x3 (k1_pay2 x0 x2 (k1_pay1 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A; dsimp only
  sl_unfold_words
  rw [View.canon_cons_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S1024x512) hz, View.ld_unit_zero (S := S1x512) hz,
    readCov_cons_unit_zero (S := S1024x512) _ hz]

theorem sout1_B_0_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    sout1_B_0 c i arg3 harg3 arg4 harg4 arg5 harg5 arg6 harg6 arg7 harg7 arg8 harg8 arg9 harg9 hc0 hc1 x0 x1 x2 x3 x4 xs0 = k1_pay3 x1 x3 (k1_pay2 x0 x2 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B; dsimp only
  sl_unfold_words
  rw [View.canon_cons_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S1024x512) hz, View.ld_unit_zero (S := S1x512) hz,
    readCov_cons_unit_zero (S := S1024x512) _ hz]

theorem sout1_C_0_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    sout1_C_0 c i arg3 harg3 arg4 harg4 arg5 harg5 arg6 harg6 arg7 harg7 arg8 harg8 arg9 harg9 hc0 hc1 x0 x1 x2 x3 x4 xs0 = k1_pay3 x1 x3 (k1_pay2 x0 x2 xs0) := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C; dsimp only
  sl_unfold_words
  rw [View.canon_cons_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S1024x512) hz, View.ld_unit_zero (S := S1x512) hz,
    readCov_cons_unit_zero (S := S1024x512) _ hz]

theorem out1_C_5_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1024 .f32) (x1 : Vec F S1024x1024 .f32) (x2 : Vec F S512x1024 .f32) (x3 : Vec F S512x1024 .f32) (x4 : Vec F S1x512 .f32) (xs0 : Vec F S1024x512 .f32) :
    out1_C_5 c i arg3 harg3 arg4 harg4 arg5 harg5 arg6 harg6 arg7 harg7 arg8 harg8 arg9 harg9 hc0 hc1 x0 x1 x2 x3 x4 xs0 = k1_pay4 (k1_pay3 x1 x3 (k1_pay2 x0 x2 xs0)) x4 := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C; dsimp only
  sl_unfold_words
  rw [View.canon_cons_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S1024x512) hz, View.ld_unit_zero (S := S1x512) hz,
    readCov_cons_unit_zero (S := S1024x512) _ hz]

end Cert.KernelIdeal.Hand

end
-- ==== Proof.KernelPay.lean ====
/-
  The kernel body's four payloads, entry by entry, over the extended reals.

  A body invocation holds a 1024 × 1024 block of each patch matrix, a 512 × 1024 block of each weight matrix, and a
  1024 × 512 accumulator. Its payloads are: the zero accumulator; the accumulator plus the product of a patch block with
  the transposed weight block, entry (p, q) being acc[p, q] + Σ_l lhs[p, l] · rhs[q, l] (twice, once per branch); and the
  accumulator plus a bias row repeated down the 1024 rows. Over the extended reals the narrowing of an operand to a
  shorter format is the identity, a change of shape to the same shape is the identity, and a product accumulated into
  the zero array is the plain sum of products.
-/
import proofs.«167216_j48137993453602_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The product's operand indices: out[p, q] reads lhs[p, l] and rhs[q, l] -/

theorem lhs_0 (j : S1024x512.Idx) (k : dot_S1024x1024_S512x1024_S1024x512_1_1_0_0_n_n.contr.Idx) :
    (dot_S1024x1024_S512x1024_S1024x512_1_1_0_0_n_n.lhsIdx j k 0).val = (j 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_1 (j : S1024x512.Idx) (k : dot_S1024x1024_S512x1024_S1024x512_1_1_0_0_n_n.contr.Idx) :
    (dot_S1024x1024_S512x1024_S1024x512_1_1_0_0_n_n.lhsIdx j k 1).val = (k ⟨0, by decide⟩).val :=
  dot_S1024x1024_S512x1024_S1024x512_1_1_0_0_n_n.lhsIdx_val_of_single rfl j k
theorem rhs_0 (j : S1024x512.Idx) (k : dot_S1024x1024_S512x1024_S1024x512_1_1_0_0_n_n.contr.Idx) :
    (dot_S1024x1024_S512x1024_S1024x512_1_1_0_0_n_n.rhsIdx j k 0).val = (j 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_1 (j : S1024x512.Idx) (k : dot_S1024x1024_S512x1024_S1024x512_1_1_0_0_n_n.contr.Idx) :
    (dot_S1024x1024_S512x1024_S1024x512_1_1_0_0_n_n.rhsIdx j k 1).val = (k ⟨0, by decide⟩).val :=
  dot_S1024x1024_S512x1024_S1024x512_1_1_0_0_n_n.rhsIdx_val_of_single rfl j k

/-- The product into the zero array, at (p, q): the sum over l of lhs[p, l] · rhs[q, l]. -/
theorem matmul_zero_apply {φ₁ φ₂ : FTy} (lhs : FVec Ideal S1024x1024 φ₁) (rhs : FVec Ideal S512x1024 φ₂) (p : Fin 1024) (q : Fin 512) :
    matmul dot_S1024x1024_S512x1024_S1024x512_1_1_0_0_n_n none lhs rhs (constant (F := Ideal) S1024x512 .f32 0x00000000#32) (ix2 p q)
      = ∑ l : Fin 1024, lhs (ix2 p l) * rhs (ix2 q l) := by
  simp only [matmul]
  rw [Ideal.matmul_constant_zero_apply, ← Equiv.sum_comp (contrEquiv1 dot_S1024x1024_S512x1024_S1024x512_1_1_0_0_n_n 1024 rfl rfl).symm]
  refine Finset.sum_congr rfl fun l _ => ?_
  have hl := contrEquiv1_symm_val dot_S1024x1024_S512x1024_S1024x512_1_1_0_0_n_n 1024 rfl rfl l
  have el : dot_S1024x1024_S512x1024_S1024x512_1_1_0_0_n_n.lhsIdx (ix2 p q) ((contrEquiv1 dot_S1024x1024_S512x1024_S1024x512_1_1_0_0_n_n 1024 rfl rfl).symm l) = ix2 p l := funext fun a => Fin.ext (by
    match a with
    | ⟨0, _⟩ => exact lhs_0 _ _
    | ⟨1, _⟩ => exact (lhs_1 _ _).trans hl)
  have er : dot_S1024x1024_S512x1024_S1024x512_1_1_0_0_n_n.rhsIdx (ix2 p q) ((contrEquiv1 dot_S1024x1024_S512x1024_S1024x512_1_1_0_0_n_n 1024 rfl rfl).symm l) = ix2 q l := funext fun a => Fin.ext (by
    match a with
    | ⟨0, _⟩ => exact rhs_0 _ _
    | ⟨1, _⟩ => exact (rhs_1 _ _).trans hl)
  rw [el, er]

/-! ## The payloads of call 0 -/

/-- The cleared accumulator. -/
theorem k0_pay1_apply (p : Fin 1024) (q : Fin 512) : k0_pay1 (F := Ideal) (ix2 p q) = 0 := by
  unfold k0_pay1
  show shapeCast S1024x512 (broadcast S1024x512 (Scalar.ofBits (F := Ideal) .f32 0x00000000#32)) shapeCasts_S1024x512_S1024x512 (ix2 p q) = 0
  rw [shapeCast_self, broadcast_apply]
  exact Ideal.ofBits_zero_f32

/-- The first branch's step: the accumulator plus the product of the blocks. -/
theorem k0_pay2_apply (v3 : Vec Ideal S1024x1024 .f32) (v9 : Vec Ideal S512x1024 .f32) (v13 : Vec Ideal S1024x512 .f32) (p : Fin 1024) (q : Fin 512) :
    k0_pay2 (F := Ideal) v3 v9 v13 (ix2 p q) = v13 (ix2 p q) + ∑ l : Fin 1024, v3 (ix2 p l) * v9 (ix2 q l) := by
  unfold k0_pay2
  show shapeCast S1024x512 (addf v13 (matmul dot_S1024x1024_S512x1024_S1024x512_1_1_0_0_n_n none (truncf .bf16 (shapeCast S1024x1024 v3 shapeCasts_S1024x1024_S1024x1024) bitsLt_bf16_f32) (truncf .bf16 v9 bitsLt_bf16_f32) (constant (F := Ideal) S1024x512 .f32 0x00000000#32))) shapeCasts_S1024x512_S1024x512 (ix2 p q) = _
  rw [shapeCast_self, addf_apply, matmul_zero_apply, shapeCast_self]
  rfl

/-- The second branch's step: the same with the other pair of blocks. -/
theorem k0_pay3_apply (v6 : Vec Ideal S1024x1024 .f32) (v11 : Vec Ideal S512x1024 .f32) (v19 : Vec Ideal S1024x512 .f32) (p : Fin 1024) (q : Fin 512) :
    k0_pay3 (F := Ideal) v6 v11 v19 (ix2 p q) = v19 (ix2 p q) + ∑ l : Fin 1024, v6 (ix2 p l) * v11 (ix2 q l) := by
  unfold k0_pay3
  show shapeCast S1024x512 (addf v19 (matmul dot_S1024x1024_S512x1024_S1024x512_1_1_0_0_n_n none (truncf .bf16 (shapeCast S1024x1024 v6 shapeCasts_S1024x1024_S1024x1024) bitsLt_bf16_f32) (truncf .bf16 v11 bitsLt_bf16_f32) (constant (F := Ideal) S1024x512 .f32 0x00000000#32))) shapeCasts_S1024x512_S1024x512 (ix2 p q) = _
  rw [shapeCast_self, addf_apply, matmul_zero_apply, shapeCast_self]
  rfl

/-- The last step: the accumulator plus the bias row, the same in every row. -/
theorem k0_pay4_apply (v28 : Vec Ideal S1024x512 .f32) (v29 : Vec Ideal S1x512 .f32) (p : Fin 1024) (q : Fin 512) :
    k0_pay4 (F := Ideal) v28 v29 (ix2 p q) = v28 (ix2 p q) + v29 (ix2 (0 : Fin 1) q) := by
  unfold k0_pay4
  show addf (F := Ideal) v28 (broadcastTo S1024x512 (shapeCast S1x512 (v29 : FVec Ideal S1x512 .f32) shapeCasts_S1x512_S1x512 : FVec Ideal S1x512 .f32) broadcasts_S1x512_S1024x512) (ix2 p q) = _
  rw [addf_apply, broadcastTo_1b_ab_apply, shapeCast_self]

/-! ## The payloads of call 1 -/

/-- The cleared accumulator. -/
theorem k1_pay1_apply (p : Fin 1024) (q : Fin 512) : k1_pay1 (F := Ideal) (ix2 p q) = 0 := by
  unfold k1_pay1
  show shapeCast S1024x512 (broadcast S1024x512 (Scalar.ofBits (F := Ideal) .f32 0x00000000#32)) shapeCasts_S1024x512_S1024x512 (ix2 p q) = 0
  rw [shapeCast_self, broadcast_apply]
  exact Ideal.ofBits_zero_f32

/-- The first branch's step: the accumulator plus the product of the blocks. -/
theorem k1_pay2_apply (v3 : Vec Ideal S1024x1024 .f32) (v9 : Vec Ideal S512x1024 .f32) (v13 : Vec Ideal S1024x512 .f32) (p : Fin 1024) (q : Fin 512) :
    k1_pay2 (F := Ideal) v3 v9 v13 (ix2 p q) = v13 (ix2 p q) + ∑ l : Fin 1024, v3 (ix2 p l) * v9 (ix2 q l) := by
  unfold k1_pay2
  show shapeCast S1024x512 (addf v13 (matmul dot_S1024x1024_S512x1024_S1024x512_1_1_0_0_n_n none (truncf .bf16 (shapeCast S1024x1024 v3 shapeCasts_S1024x1024_S1024x1024) bitsLt_bf16_f32) (truncf .bf16 v9 bitsLt_bf16_f32) (constant (F := Ideal) S1024x512 .f32 0x00000000#32))) shapeCasts_S1024x512_S1024x512 (ix2 p q) = _
  rw [shapeCast_self, addf_apply, matmul_zero_apply, shapeCast_self]
  rfl

/-- The second branch's step: the same with the other pair of blocks. -/
theorem k1_pay3_apply (v6 : Vec Ideal S1024x1024 .f32) (v11 : Vec Ideal S512x1024 .f32) (v19 : Vec Ideal S1024x512 .f32) (p : Fin 1024) (q : Fin 512) :
    k1_pay3 (F := Ideal) v6 v11 v19 (ix2 p q) = v19 (ix2 p q) + ∑ l : Fin 1024, v6 (ix2 p l) * v11 (ix2 q l) := by
  unfold k1_pay3
  show shapeCast S1024x512 (addf v19 (matmul dot_S1024x1024_S512x1024_S1024x512_1_1_0_0_n_n none (truncf .bf16 (shapeCast S1024x1024 v6 shapeCasts_S1024x1024_S1024x1024) bitsLt_bf16_f32) (truncf .bf16 v11 bitsLt_bf16_f32) (constant (F := Ideal) S1024x512 .f32 0x00000000#32))) shapeCasts_S1024x512_S1024x512 (ix2 p q) = _
  rw [shapeCast_self, addf_apply, matmul_zero_apply, shapeCast_self]
  rfl

/-- The last step: the accumulator plus the bias row, the same in every row. -/
theorem k1_pay4_apply (v28 : Vec Ideal S1024x512 .f32) (v29 : Vec Ideal S1x512 .f32) (p : Fin 1024) (q : Fin 512) :
    k1_pay4 (F := Ideal) v28 v29 (ix2 p q) = v28 (ix2 p q) + v29 (ix2 (0 : Fin 1) q) := by
  unfold k1_pay4
  show addf (F := Ideal) v28 (broadcastTo S1024x512 (shapeCast S1x512 (v29 : FVec Ideal S1x512 .f32) shapeCasts_S1x512_S1x512 : FVec Ideal S1x512 .f32) broadcasts_S1x512_S1024x512) (ix2 p q) = _
  rw [addf_apply, broadcastTo_1b_ab_apply, shapeCast_self]

end Cert.KernelIdeal.Pay

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.KernelAcc.lean ====
/-
  The order in which the kernel adds its partial sums does not matter.

  Over its four steps along the contraction axis the kernel adds to a cleared accumulator, alternately, a partial sum
  a_s of the first branch and a partial sum b_s of the second, and at the end a bias term z:
      ((((((((0 + a₀) + b₀) + a₁) + b₁) + a₂) + b₂) + a₃) + b₃) + z.
  In any commutative additive monoid this is (Σ_s a_s + Σ_s b_s) + z: only commutativity and associativity of + are
  used, so it holds on the extended reals, where nothing can be cancelled. When a_s and b_s are the sums of two
  functions on 0 … 4095 over the s-th block of 1024 consecutive indices, the two totals are the functions' full sums.
-/
import Mathlib.Data.EReal.Basic
import Mathlib.Tactic.Abel
import proofs.«167216_j48137993453602_2_alg».proof.Proof.LibBlockSum

namespace Cert.KernelIdeal.Acc

variable {M : Type*} [AddCommMonoid M]

/-- Four alternating steps and a final term, regrouped as the two branches' totals plus the final term. -/
theorem acc_four (a b : Fin 4 → M) (z : M) :
    ((((((((0 + a 0) + b 0) + a 1) + b 1) + a 2) + b 2) + a 3) + b 3) + z = ((∑ s, a s) + (∑ s, b s)) + z := by
  rw [Fin.sum_univ_four, Fin.sum_univ_four, zero_add]
  abel

/-- The sum of a function on 0 … 4095 over its s-th block of 1024 consecutive indices. -/
def blockSum (f : Fin 4096 → M) (s : Fin 4) : M := ∑ l : Fin 1024, f ⟨1024 * s.val + l.val, by omega⟩

/-- The four block sums add up to the full sum. -/
theorem sum_blockSum (f : Fin 4096 → M) : ∑ s : Fin 4, blockSum f s = ∑ k : Fin 4096, f k := by
  let f' : ℕ → M := fun n => if h : n < 4096 then f ⟨n, h⟩ else 0
  have h := Cert.Lib.sum_blocks 4 1024 f'
  rw [Finset.sum_range] at h
  have e1 : ∀ s : Fin 4, blockSum f s = ∑ l : Fin 1024, f' (1024 * s.val + l.val) := fun s =>
    Finset.sum_congr rfl fun l _ => by
      have hlt : 1024 * s.val + l.val < 4096 := by omega
      show f ⟨1024 * s.val + l.val, _⟩ = if h : 1024 * s.val + l.val < 4096 then f ⟨1024 * s.val + l.val, h⟩ else 0
      rw [dif_pos hlt]
  have e2 : ∑ k : Fin 4096, f k = ∑ k : Fin (4 * 1024), f' k.val :=
    Finset.sum_congr rfl fun k _ => by
      show f k = if h : k.val < 4096 then f ⟨k.val, h⟩ else 0
      rw [dif_pos k.isLt]
  rw [e2, ← h]
  exact Finset.sum_congr rfl fun s _ => e1 s

/-- The kernel's whole accumulation: when the partial sums are the block sums of f and of g, the result is the two full
    sums plus the final term. -/
theorem acc_total (f g : Fin 4096 → M) (a b : Fin 4 → M) (z : M)
    (ha : ∀ s : Fin 4, a s = ∑ l : Fin 1024, f ⟨1024 * s.val + l.val, by omega⟩)
    (hb : ∀ s : Fin 4, b s = ∑ l : Fin 1024, g ⟨1024 * s.val + l.val, by omega⟩) :
    ((((((((0 + a 0) + b 0) + a 1) + b 1) + a 2) + b 2) + a 3) + b 3) + z = ((∑ k, f k) + (∑ k, g k)) + z := by
  rw [acc_four, ← sum_blockSum f, ← sum_blockSum g]
  exact congrArg₂ (fun x y => (x + y) + z) (Finset.sum_congr rfl fun s _ => ha s) (Finset.sum_congr rfl fun s _ => hb s)

/-- The same on the extended reals, the form the kernel's entries take. -/
theorem acc_total_ereal (f g : Fin 4096 → EReal) (a b : Fin 4 → EReal) (z : EReal)
    (ha : ∀ s : Fin 4, a s = ∑ l : Fin 1024, f ⟨1024 * s.val + l.val, by omega⟩)
    (hb : ∀ s : Fin 4, b s = ∑ l : Fin 1024, g ⟨1024 * s.val + l.val, by omega⟩) :
    ((((((((0 + a 0) + b 0) + a 1) + b 1) + a 2) + b 2) + a 3) + b 3) + z = ((∑ k, f k) + (∑ k, g k)) + z :=
  acc_total f g a b z ha hb

end Cert.KernelIdeal.Acc
-- ==== Proof.KernelIdealTyped.lean ====
/-
  At the exact instance a buffer's contents are a function from its indices to the extended reals; `asFn` only names that
  reading, so that sums and products of entries are taken in the extended reals.
-/
import Idealize.ShloMosaic.PureOps.Ideal

noncomputable section

namespace Cert.KernelIdeal.Hand

open Idealize.ShloMosaic

/-- A buffer's contents at the exact instance, read as an extended-real-valued function of its indices. -/
abbrev asFn {S : Shape} (f : S.Idx → EReal) : S.Idx → EReal := f

end Cert.KernelIdeal.Hand

end
-- ==== Proof.KernelIdealValue0.lean ====
/-
  Region 0's result array, read as values at the exact instance: every entry of the 1024 × 4096 result is the sum over the whole
  contraction axis of the first activation–weight products, plus the same for the second pair, plus the bias row's entry. The
  kernel reaches it in four points per column block — zero, then the two products of each quarter of the contraction axis added
  in turn, then the bias — and a sum over 0 … 4095 taken quarter by quarter is the whole sum; addition of extended reals is
  commutative and associative, so the order the terms were added in does not matter.
-/
import proofs.«167216_j48137993453602_2_alg».proof.Proof.KernelIdealPieces
import proofs.«167216_j48137993453602_2_alg».proof.Proof.KernelPay
import proofs.«167216_j48137993453602_2_alg».proof.Proof.KernelAcc
import proofs.«167216_j48137993453602_2_alg».proof.Proof.KernelIdealTyped
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Value0
variable (V : (c : Dev nD) → (b : Ref sig .tc) → Buf (Elt Ideal) ((c : Thread nD τ).loc b))

/-! # Region 0: the result array as one function of the arrays the region finds -/

/-- The block index maps over the 1 × 8 × 4 grid, point `t` = 4·(column block) + (contraction slice): the two activation
    windows walk the contraction axis, the two weight windows sit at (column block, slice), the bias row and the output at the column block. -/
theorem idx0 : ∀ t : Fin cfg0.N,
    win0_0.index t (0 : Fin 2) = 0 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4
    ∧ win0_4.index t (0 : Fin 2) = 0 ∧ win0_4.index t (1 : Fin 2) = t.val / 4
    ∧ win0_5.index t (0 : Fin 2) = 0 ∧ win0_5.index t (1 : Fin 2) = t.val / 4 :=
  (by decide +kernel : ∀ t : Fin grid0.N, _)

/-- The point of column block `j` and contraction slice `s`. -/
def ptOf0 (j : Fin 8) (s : Fin 4) : Fin cfg0.N := ⟨4 * j.val + s.val, by have h : cfg0.N = 32 := N_0; omega⟩

/-! ## The input blocks at a point, read off the arrays -/

theorem blk0_0 (c : Dev nD) (j : Fin 8) (s : Fin 4) (p : Fin 1024) (l : Fin 1024) :
    asFn (S := S1024x1024) (iblk0 V c 0 (ptOf0 j s)) (ix2 p l) = asFn (S := S1024x4096) (V c main_v3) (ix2 p ⟨1024 * s.val + l.val, by omega⟩) := by
  show (V c main_v3 : S1024x4096.Idx → EReal) (((cfg0.win 0).blk (ptOf0 j s)).view.emb (ix2 p l)) = (V c main_v3 : S1024x4096.Idx → EReal) (ix2 p ⟨1024 * s.val + l.val, by omega⟩)
  refine congrArg _ (funext fun a => Fin.ext ?_)
  obtain ⟨e00, e01, -⟩ := idx0 (ptOf0 j s)
  have hv : (ptOf0 j s).val = 4 * j.val + s.val := rfl
  match a with
  | ⟨0, _⟩ => show win0_0.index (ptOf0 j s) (0 : Fin 2) * 1024 + 1 * p.val = p.val; omega
  | ⟨1, _⟩ => show win0_0.index (ptOf0 j s) (1 : Fin 2) * 1024 + 1 * l.val = 1024 * s.val + l.val; omega

theorem blk0_1 (c : Dev nD) (j : Fin 8) (s : Fin 4) (p : Fin 1024) (l : Fin 1024) :
    asFn (S := S1024x1024) (iblk0 V c 1 (ptOf0 j s)) (ix2 p l) = asFn (S := S1024x4096) (V c main_v7) (ix2 p ⟨1024 * s.val + l.val, by omega⟩) := by
  show (V c main_v7 : S1024x4096.Idx → EReal) (((cfg0.win 1).blk (ptOf0 j s)).view.emb (ix2 p l)) = (V c main_v7 : S1024x4096.Idx → EReal) (ix2 p ⟨1024 * s.val + l.val, by omega⟩)
  refine congrArg _ (funext fun a => Fin.ext ?_)
  obtain ⟨-, -, e10, e11, -⟩ := idx0 (ptOf0 j s)
  have hv : (ptOf0 j s).val = 4 * j.val + s.val := rfl
  match a with
  | ⟨0, _⟩ => show win0_1.index (ptOf0 j s) (0 : Fin 2) * 1024 + 1 * p.val = p.val; omega
  | ⟨1, _⟩ => show win0_1.index (ptOf0 j s) (1 : Fin 2) * 1024 + 1 * l.val = 1024 * s.val + l.val; omega

theorem blk0_2 (c : Dev nD) (j : Fin 8) (s : Fin 4) (q : Fin 512) (l : Fin 1024) :
    asFn (S := S512x1024) (iblk0 V c 2 (ptOf0 j s)) (ix2 q l) = asFn (S := S4096x4096) (V c main_arg2) (ix2 ⟨512 * j.val + q.val, by omega⟩ ⟨1024 * s.val + l.val, by omega⟩) := by
  show (V c main_arg2 : S4096x4096.Idx → EReal) (((cfg0.win 2).blk (ptOf0 j s)).view.emb (ix2 q l)) = (V c main_arg2 : S4096x4096.Idx → EReal) (ix2 ⟨512 * j.val + q.val, by omega⟩ ⟨1024 * s.val + l.val, by omega⟩)
  refine congrArg _ (funext fun a => Fin.ext ?_)
  obtain ⟨-, -, -, -, e20, e21, -⟩ := idx0 (ptOf0 j s)
  have hv : (ptOf0 j s).val = 4 * j.val + s.val := rfl
  match a with
  | ⟨0, _⟩ => show win0_2.index (ptOf0 j s) (0 : Fin 2) * 512 + 1 * q.val = 512 * j.val + q.val; omega
  | ⟨1, _⟩ => show win0_2.index (ptOf0 j s) (1 : Fin 2) * 1024 + 1 * l.val = 1024 * s.val + l.val; omega

theorem blk0_3 (c : Dev nD) (j : Fin 8) (s : Fin 4) (q : Fin 512) (l : Fin 1024) :
    asFn (S := S512x1024) (iblk0 V c 3 (ptOf0 j s)) (ix2 q l) = asFn (S := S4096x4096) (V c main_arg8) (ix2 ⟨512 * j.val + q.val, by omega⟩ ⟨1024 * s.val + l.val, by omega⟩) := by
  show (V c main_arg8 : S4096x4096.Idx → EReal) (((cfg0.win 3).blk (ptOf0 j s)).view.emb (ix2 q l)) = (V c main_arg8 : S4096x4096.Idx → EReal) (ix2 ⟨512 * j.val + q.val, by omega⟩ ⟨1024 * s.val + l.val, by omega⟩)
  refine congrArg _ (funext fun a => Fin.ext ?_)
  obtain ⟨-, -, -, -, -, -, e30, e31, -⟩ := idx0 (ptOf0 j s)
  have hv : (ptOf0 j s).val = 4 * j.val + s.val := rfl
  match a with
  | ⟨0, _⟩ => show win0_3.index (ptOf0 j s) (0 : Fin 2) * 512 + 1 * q.val = 512 * j.val + q.val; omega
  | ⟨1, _⟩ => show win0_3.index (ptOf0 j s) (1 : Fin 2) * 1024 + 1 * l.val = 1024 * s.val + l.val; omega

theorem blk0_4 (c : Dev nD) (j : Fin 8) (s : Fin 4) (q : Fin 512) :
    asFn (S := S1x512) (iblk0 V c 4 (ptOf0 j s)) (ix2 (0 : Fin 1) q) = asFn (S := S1x4096) (V c main_v10) (ix2 (0 : Fin 1) ⟨512 * j.val + q.val, by omega⟩) := by
  show (V c main_v10 : S1x4096.Idx → EReal) (((cfg0.win 4).blk (ptOf0 j s)).view.emb (ix2 (0 : Fin 1) q)) = (V c main_v10 : S1x4096.Idx → EReal) (ix2 (0 : Fin 1) ⟨512 * j.val + q.val, by omega⟩)
  refine congrArg _ (funext fun a => Fin.ext ?_)
  obtain ⟨-, -, -, -, -, -, -, -, e40, e41, -⟩ := idx0 (ptOf0 j s)
  have hv : (ptOf0 j s).val = 4 * j.val + s.val := rfl
  match a with
  | ⟨0, _⟩ => show win0_4.index (ptOf0 j s) (0 : Fin 2) * 1 + 1 * 0 = 0; omega
  | ⟨1, _⟩ => show win0_4.index (ptOf0 j s) (1 : Fin 2) * 512 + 1 * q.val = 512 * j.val + q.val; omega

/-! ## One point's step of the accumulator -/

/-- The first product of a point's blocks, at an entry of the output block. -/
def prodA0 (c : Dev nD) (t : Fin cfg0.N) (p : Fin 1024) (q : Fin 512) : EReal :=
  ∑ l : Fin 1024, asFn (S := S1024x1024) (iblk0 V c 0 t) (ix2 p l) * asFn (S := S512x1024) (iblk0 V c 2 t) (ix2 q l)
/-- The second product. -/
def prodB0 (c : Dev nD) (t : Fin cfg0.N) (p : Fin 1024) (q : Fin 512) : EReal :=
  ∑ l : Fin 1024, asFn (S := S1024x1024) (iblk0 V c 1 t) (ix2 p l) * asFn (S := S512x1024) (iblk0 V c 3 t) (ix2 q l)

/-- At the first point of four the accumulator is zero plus the two products. -/
theorem acc0_first (c : Dev nD) (n : ℕ) (hn : n < cfg0.N) (h0 : n % 4 = 0) (p : Fin 1024) (q : Fin 512) :
    asFn (S := S1024x512) ((outsAt0 V c n hn).2) (ix2 p q) = (0 + prodA0 V c ⟨n, hn⟩ p q) + prodB0 V c ⟨n, hn⟩ p q := by
  show ((outsAt0 V c n hn).2 : S1024x512.Idx → EReal) (ix2 p q) = _
  rw [outsAt0_A V c ⟨n, hn⟩ h0 (by show ¬ n % 4 = 3; omega)]
  unfold pt0_A; dsimp only
  rw [sout0_A_0_eq]
  refine (Cert.KernelIdeal.Pay.k0_pay3_apply _ _ _ p q).trans ?_
  refine congrArg (fun z => z + prodB0 V c ⟨n, hn⟩ p q) ?_
  refine (Cert.KernelIdeal.Pay.k0_pay2_apply _ _ _ p q).trans ?_
  exact congrArg (fun z => z + prodA0 V c ⟨n, hn⟩ p q) (Cert.KernelIdeal.Pay.k0_pay1_apply p q)

/-- At a later point it is what the point before left plus the two products. -/
theorem acc0_next (c : Dev nD) (n : ℕ) (hn : n + 1 < cfg0.N) (h0 : ¬ (n + 1) % 4 = 0) (p : Fin 1024) (q : Fin 512) :
    asFn (S := S1024x512) ((outsAt0 V c (n + 1) hn).2) (ix2 p q)
      = (asFn (S := S1024x512) ((outsAt0 V c n (Nat.lt_of_succ_lt hn)).2) (ix2 p q) + prodA0 V c ⟨n + 1, hn⟩ p q) + prodB0 V c ⟨n + 1, hn⟩ p q := by
  show ((outsAt0 V c (n + 1) hn).2 : S1024x512.Idx → EReal) (ix2 p q) = _
  by_cases h1 : (n + 1) % 4 = 3
  · rw [outsAt0_C V c ⟨n + 1, hn⟩ h0 h1]
    unfold pt0_C; dsimp only
    rw [sout0_C_0_eq]
    refine (Cert.KernelIdeal.Pay.k0_pay3_apply _ _ _ p q).trans ?_
    exact congrArg (fun z => z + prodB0 V c ⟨n + 1, hn⟩ p q) (Cert.KernelIdeal.Pay.k0_pay2_apply _ _ _ p q)
  · rw [outsAt0_B V c ⟨n + 1, hn⟩ h0 h1]
    unfold pt0_B; dsimp only
    rw [sout0_B_0_eq]
    refine (Cert.KernelIdeal.Pay.k0_pay3_apply _ _ _ p q).trans ?_
    exact congrArg (fun z => z + prodB0 V c ⟨n + 1, hn⟩ p q) (Cert.KernelIdeal.Pay.k0_pay2_apply _ _ _ p q)

/-- At a last point of four the output block is the accumulator plus the bias row. -/
theorem out0_last (c : Dev nD) (n : ℕ) (hn : n < cfg0.N) (h1 : n % 4 = 3) (p : Fin 1024) (q : Fin 512) :
    asFn (S := S1024x512) ((outsAt0 V c n hn).1) (ix2 p q)
      = asFn (S := S1024x512) ((outsAt0 V c n hn).2) (ix2 p q) + asFn (S := S1x512) (iblk0 V c 4 ⟨n, hn⟩) (ix2 (0 : Fin 1) q) := by
  have h0 : ¬ n % 4 = 0 := by omega
  show ((outsAt0 V c n hn).1 : S1024x512.Idx → EReal) (ix2 p q) = ((outsAt0 V c n hn).2 : S1024x512.Idx → EReal) (ix2 p q) + _
  rw [outsAt0_C V c ⟨n, hn⟩ h0 h1]
  unfold pt0_C; dsimp only
  rw [out0_C_5_eq, sout0_C_0_eq]
  exact Cert.KernelIdeal.Pay.k0_pay4_apply _ _ p q

/-! ## A whole run of four points: the entry of the result -/

/-- One entry of the region's result: the two full products' sums, then the bias row's entry. -/
def gmatAt0 (c : Dev nD) (p : Fin 1024) (n : Fin 4096) : EReal :=
  ((∑ k : Fin 4096, asFn (S := S1024x4096) (V c main_v3) (ix2 p k) * asFn (S := S4096x4096) (V c main_arg2) (ix2 n k)) + (∑ k : Fin 4096, asFn (S := S1024x4096) (V c main_v7) (ix2 p k) * asFn (S := S4096x4096) (V c main_arg8) (ix2 n k))) + asFn (S := S1x4096) (V c main_v10) (ix2 (0 : Fin 1) n)

/-- The region's result as a matrix. -/
def gmat0 (c : Dev nD) : S1024x4096.Idx → EReal := fun i => gmatAt0 V c (i 0) (i 1)

/-- A point's first product is the slice's part of the full contraction. -/
theorem prodA0_eq (c : Dev nD) (j : Fin 8) (s : Fin 4) (p : Fin 1024) (q : Fin 512) :
    prodA0 V c (ptOf0 j s) p q
      = ∑ l : Fin 1024, (fun k : Fin 4096 => asFn (S := S1024x4096) (V c main_v3) (ix2 p k) * asFn (S := S4096x4096) (V c main_arg2) (ix2 (⟨512 * j.val + q.val, by omega⟩ : Fin 4096) k)) ⟨1024 * s.val + l.val, by omega⟩ :=
  Finset.sum_congr rfl fun l _ => by rw [blk0_0 V c j s p l, blk0_2 V c j s q l]
theorem prodB0_eq (c : Dev nD) (j : Fin 8) (s : Fin 4) (p : Fin 1024) (q : Fin 512) :
    prodB0 V c (ptOf0 j s) p q
      = ∑ l : Fin 1024, (fun k : Fin 4096 => asFn (S := S1024x4096) (V c main_v7) (ix2 p k) * asFn (S := S4096x4096) (V c main_arg8) (ix2 (⟨512 * j.val + q.val, by omega⟩ : Fin 4096) k)) ⟨1024 * s.val + l.val, by omega⟩ :=
  Finset.sum_congr rfl fun l _ => by rw [blk0_1 V c j s p l, blk0_3 V c j s q l]

/-- After the fourth point of column block `j` the output block holds the result's entries of that column block: the four
    slices' products, added in the order the points ran, are the two full contractions (a sum regrouped block by block). -/
theorem out0_block (c : Dev nD) (j : Fin 8) (p : Fin 1024) (q : Fin 512) :
    asFn (S := S1024x512) ((outsAt0 V c (ptOf0 j 3).val (ptOf0 j 3).isLt).1) (ix2 p q)
      = gmatAt0 V c p ⟨512 * j.val + q.val, by omega⟩ := by
  have hN : cfg0.N = 32 := N_0
  have h3 : 4 * j.val + 3 < cfg0.N := by omega
  have e3 := acc0_next V c (4 * j.val + 2) h3 (by omega) p q
  have e2 := acc0_next V c (4 * j.val + 1) (by omega) (by omega) p q
  have e1 := acc0_next V c (4 * j.val) (by omega) (by omega) p q
  have e0 := acc0_first V c (4 * j.val) (by omega) (by omega) p q
  have eo := out0_last V c (4 * j.val + 3) h3 (by omega) p q
  have hb := blk0_4 V c j 3 q
  refine (eo.trans ?_)
  rw [e3, e2, e1, e0]
  refine (congrArg (fun z => _ + z) hb).trans ?_
  exact Cert.KernelIdeal.Acc.acc_total_ereal _ _
    (fun s : Fin 4 => prodA0 V c (ptOf0 j s) p q) (fun s : Fin 4 => prodB0 V c (ptOf0 j s) p q) _
    (fun s => prodA0_eq V c j s p q) (fun s => prodB0_eq V c j s p q)

/-! ## From blocks to the array -/

/-- What a writing-back point writes back is its block of the result matrix. -/
theorem flushed0_eq (c : Dev nD) (t : Fin cfg0.N) (hf : (cfg0.win 5).flush t = true) :
    (dat0 V c).flushed 5 t = ((cfg0.win 5).blk t).view.read (Elt Ideal) (gmat0 V c) := by
  have h3 : t.val % 4 = 3 := (flush0_5 t).mp hf
  have hN : cfg0.N = 32 := N_0
  have htl : t.val < 32 := lt_of_lt_of_eq t.isLt hN
  obtain ⟨j, rfl⟩ : ∃ j : Fin 8, t = ptOf0 j 3 := ⟨⟨t.val / 4, by omega⟩, Fin.ext (by show t.val = 4 * (t.val / 4) + 3; omega)⟩
  show (cfg0.win 5).cut (grid0.coords (ptOf0 j 3)) ((dat0 V c).after 5 (ptOf0 j 3)) = _
  rw [after0_5]
  funext y
  obtain ⟨p, q, rfl⟩ : ∃ (p : Fin 1024) (q : Fin 512), y = ix2 p q := ⟨y 0, y 1, eq_ix2 y⟩
  refine (out0_block V c j p q).trans ?_
  show gmatAt0 V c p ⟨512 * j.val + q.val, _⟩ = gmat0 V c (((cfg0.win 5).blk (ptOf0 j 3)).view.emb (ix2 p q))
  unfold gmat0
  obtain ⟨-, -, -, -, -, -, -, -, -, -, e50, e51⟩ := idx0 (ptOf0 j 3)
  have hv : (ptOf0 j 3).val = 4 * j.val + 3 := rfl
  congr 1
  · exact Fin.ext (by show p.val = win0_5.index (ptOf0 j 3) (0 : Fin 2) * 1024 + 1 * p.val; omega)
  · exact Fin.ext (by show 512 * j.val + q.val = win0_5.index (ptOf0 j 3) (1 : Fin 2) * 512 + 1 * q.val; omega)

/-- An index of the result array is in a point's output block iff each coordinate is in the block's range. -/
theorem mem_blk0 (t : Fin cfg0.N) (i : S1024x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v11).slice (win0_5.rect t)).set ↔ _
  rw [View.set_slice_whole, Rect.mem_set_unit]
  exact Iff.rfl

/-- Every index of the result array is in some writing-back point's block: the eight column blocks tile it. -/
theorem cover0 (i : S1024x4096.Idx) : ∃ t : Fin cfg0.N, (cfg0.win 5).flush t = true ∧ i ∈ ((cfg0.win 5).blk t).view.set := by
  have hi0 : (i 0).val < 1024 := (i 0).isLt
  have hi1 : (i 1).val < 4096 := (i 1).isLt
  refine ⟨ptOf0 ⟨(i 1).val / 512, by omega⟩ 3, (flush0_5 _).mpr (by show (4 * ((i 1).val / 512) + 3) % 4 = 3; omega), ?_⟩
  rw [mem_blk0]
  obtain ⟨-, -, -, -, -, -, -, -, -, -, e50, e51⟩ := idx0 (ptOf0 ⟨(i 1).val / 512, by omega⟩ 3)
  have hv : (ptOf0 ⟨(i 1).val / 512, by omega⟩ 3).val = 4 * ((i 1).val / 512) + 3 := rfl
  intro a
  match a with
  | ⟨0, _⟩ => show win0_5.index _ (0 : Fin 2) * 1024 ≤ (i 0).val ∧ (i 0).val < win0_5.index _ (0 : Fin 2) * 1024 + 1024; omega
  | ⟨1, _⟩ => show win0_5.index _ (1 : Fin 2) * 512 ≤ (i 1).val ∧ (i 1).val < win0_5.index _ (1 : Fin 2) * 512 + 512; omega

/-- THE RESULT ARRAY after the region: the result matrix of the arrays the region found. -/
theorem final0 (c : Dev nD) : (dat0 V c).arrAt 5 cfg0.N = gmat0 V c :=
  (dat0 V c).arrAt_eq_of_cover 5 (gmat0 V c) (fun t hf => flushed0_eq V c t hf) (cover0)

end Value0

end Cert.KernelIdeal.Hand

end
-- ==== Proof.KernelIdealValue1.lean ====
/-
  Region 1's result array, read as values at the exact instance: every entry of the 1024 × 4096 result is the sum over the whole
  contraction axis of the first activation–weight products, plus the same for the second pair, plus the bias row's entry. The
  kernel reaches it in four points per column block — zero, then the two products of each quarter of the contraction axis added
  in turn, then the bias — and a sum over 0 … 4095 taken quarter by quarter is the whole sum; addition of extended reals is
  commutative and associative, so the order the terms were added in does not matter.
-/
import proofs.«167216_j48137993453602_2_alg».proof.Proof.KernelIdealPieces
import proofs.«167216_j48137993453602_2_alg».proof.Proof.KernelPay
import proofs.«167216_j48137993453602_2_alg».proof.Proof.KernelAcc
import proofs.«167216_j48137993453602_2_alg».proof.Proof.KernelIdealTyped
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Value1
variable (V : (c : Dev nD) → (b : Ref sig .tc) → Buf (Elt Ideal) ((c : Thread nD τ).loc b))

/-! # Region 1: the result array as one function of the arrays the region finds -/

/-- The block index maps over the 1 × 8 × 4 grid, point `t` = 4·(column block) + (contraction slice): the two activation
    windows walk the contraction axis, the two weight windows sit at (column block, slice), the bias row and the output at the column block. -/
theorem idx1 : ∀ t : Fin cfg1.N,
    win1_0.index t (0 : Fin 2) = 0 ∧ win1_0.index t (1 : Fin 2) = t.val % 4
    ∧ win1_1.index t (0 : Fin 2) = 0 ∧ win1_1.index t (1 : Fin 2) = t.val % 4
    ∧ win1_2.index t (0 : Fin 2) = t.val / 4 ∧ win1_2.index t (1 : Fin 2) = t.val % 4
    ∧ win1_3.index t (0 : Fin 2) = t.val / 4 ∧ win1_3.index t (1 : Fin 2) = t.val % 4
    ∧ win1_4.index t (0 : Fin 2) = 0 ∧ win1_4.index t (1 : Fin 2) = t.val / 4
    ∧ win1_5.index t (0 : Fin 2) = 0 ∧ win1_5.index t (1 : Fin 2) = t.val / 4 :=
  (by decide +kernel : ∀ t : Fin grid1.N, _)

/-- The point of column block `j` and contraction slice `s`. -/
def ptOf1 (j : Fin 8) (s : Fin 4) : Fin cfg1.N := ⟨4 * j.val + s.val, by have h : cfg1.N = 32 := N_1; omega⟩

/-! ## The input blocks at a point, read off the arrays -/

theorem blk1_0 (c : Dev nD) (j : Fin 8) (s : Fin 4) (p : Fin 1024) (l : Fin 1024) :
    asFn (S := S1024x1024) (iblk1 V c 0 (ptOf1 j s)) (ix2 p l) = asFn (S := S1024x4096) (V c main_v7) (ix2 p ⟨1024 * s.val + l.val, by omega⟩) := by
  show (V c main_v7 : S1024x4096.Idx → EReal) (((cfg1.win 0).blk (ptOf1 j s)).view.emb (ix2 p l)) = (V c main_v7 : S1024x4096.Idx → EReal) (ix2 p ⟨1024 * s.val + l.val, by omega⟩)
  refine congrArg _ (funext fun a => Fin.ext ?_)
  obtain ⟨e00, e01, -⟩ := idx1 (ptOf1 j s)
  have hv : (ptOf1 j s).val = 4 * j.val + s.val := rfl
  match a with
  | ⟨0, _⟩ => show win1_0.index (ptOf1 j s) (0 : Fin 2) * 1024 + 1 * p.val = p.val; omega
  | ⟨1, _⟩ => show win1_0.index (ptOf1 j s) (1 : Fin 2) * 1024 + 1 * l.val = 1024 * s.val + l.val; omega

theorem blk1_1 (c : Dev nD) (j : Fin 8) (s : Fin 4) (p : Fin 1024) (l : Fin 1024) :
    asFn (S := S1024x1024) (iblk1 V c 1 (ptOf1 j s)) (ix2 p l) = asFn (S := S1024x4096) (V c main_v3) (ix2 p ⟨1024 * s.val + l.val, by omega⟩) := by
  show (V c main_v3 : S1024x4096.Idx → EReal) (((cfg1.win 1).blk (ptOf1 j s)).view.emb (ix2 p l)) = (V c main_v3 : S1024x4096.Idx → EReal) (ix2 p ⟨1024 * s.val + l.val, by omega⟩)
  refine congrArg _ (funext fun a => Fin.ext ?_)
  obtain ⟨-, -, e10, e11, -⟩ := idx1 (ptOf1 j s)
  have hv : (ptOf1 j s).val = 4 * j.val + s.val := rfl
  match a with
  | ⟨0, _⟩ => show win1_1.index (ptOf1 j s) (0 : Fin 2) * 1024 + 1 * p.val = p.val; omega
  | ⟨1, _⟩ => show win1_1.index (ptOf1 j s) (1 : Fin 2) * 1024 + 1 * l.val = 1024 * s.val + l.val; omega

theorem blk1_2 (c : Dev nD) (j : Fin 8) (s : Fin 4) (q : Fin 512) (l : Fin 1024) :
    asFn (S := S512x1024) (iblk1 V c 2 (ptOf1 j s)) (ix2 q l) = asFn (S := S4096x4096) (V c main_arg6) (ix2 ⟨512 * j.val + q.val, by omega⟩ ⟨1024 * s.val + l.val, by omega⟩) := by
  show (V c main_arg6 : S4096x4096.Idx → EReal) (((cfg1.win 2).blk (ptOf1 j s)).view.emb (ix2 q l)) = (V c main_arg6 : S4096x4096.Idx → EReal) (ix2 ⟨512 * j.val + q.val, by omega⟩ ⟨1024 * s.val + l.val, by omega⟩)
  refine congrArg _ (funext fun a => Fin.ext ?_)
  obtain ⟨-, -, -, -, e20, e21, -⟩ := idx1 (ptOf1 j s)
  have hv : (ptOf1 j s).val = 4 * j.val + s.val := rfl
  match a with
  | ⟨0, _⟩ => show win1_2.index (ptOf1 j s) (0 : Fin 2) * 512 + 1 * q.val = 512 * j.val + q.val; omega
  | ⟨1, _⟩ => show win1_2.index (ptOf1 j s) (1 : Fin 2) * 1024 + 1 * l.val = 1024 * s.val + l.val; omega

theorem blk1_3 (c : Dev nD) (j : Fin 8) (s : Fin 4) (q : Fin 512) (l : Fin 1024) :
    asFn (S := S512x1024) (iblk1 V c 3 (ptOf1 j s)) (ix2 q l) = asFn (S := S4096x4096) (V c main_arg4) (ix2 ⟨512 * j.val + q.val, by omega⟩ ⟨1024 * s.val + l.val, by omega⟩) := by
  show (V c main_arg4 : S4096x4096.Idx → EReal) (((cfg1.win 3).blk (ptOf1 j s)).view.emb (ix2 q l)) = (V c main_arg4 : S4096x4096.Idx → EReal) (ix2 ⟨512 * j.val + q.val, by omega⟩ ⟨1024 * s.val + l.val, by omega⟩)
  refine congrArg _ (funext fun a => Fin.ext ?_)
  obtain ⟨-, -, -, -, -, -, e30, e31, -⟩ := idx1 (ptOf1 j s)
  have hv : (ptOf1 j s).val = 4 * j.val + s.val := rfl
  match a with
  | ⟨0, _⟩ => show win1_3.index (ptOf1 j s) (0 : Fin 2) * 512 + 1 * q.val = 512 * j.val + q.val; omega
  | ⟨1, _⟩ => show win1_3.index (ptOf1 j s) (1 : Fin 2) * 1024 + 1 * l.val = 1024 * s.val + l.val; omega

theorem blk1_4 (c : Dev nD) (j : Fin 8) (s : Fin 4) (q : Fin 512) :
    asFn (S := S1x512) (iblk1 V c 4 (ptOf1 j s)) (ix2 (0 : Fin 1) q) = asFn (S := S1x4096) (V c main_v12) (ix2 (0 : Fin 1) ⟨512 * j.val + q.val, by omega⟩) := by
  show (V c main_v12 : S1x4096.Idx → EReal) (((cfg1.win 4).blk (ptOf1 j s)).view.emb (ix2 (0 : Fin 1) q)) = (V c main_v12 : S1x4096.Idx → EReal) (ix2 (0 : Fin 1) ⟨512 * j.val + q.val, by omega⟩)
  refine congrArg _ (funext fun a => Fin.ext ?_)
  obtain ⟨-, -, -, -, -, -, -, -, e40, e41, -⟩ := idx1 (ptOf1 j s)
  have hv : (ptOf1 j s).val = 4 * j.val + s.val := rfl
  match a with
  | ⟨0, _⟩ => show win1_4.index (ptOf1 j s) (0 : Fin 2) * 1 + 1 * 0 = 0; omega
  | ⟨1, _⟩ => show win1_4.index (ptOf1 j s) (1 : Fin 2) * 512 + 1 * q.val = 512 * j.val + q.val; omega

/-! ## One point's step of the accumulator -/

/-- The first product of a point's blocks, at an entry of the output block. -/
def prodA1 (c : Dev nD) (t : Fin cfg1.N) (p : Fin 1024) (q : Fin 512) : EReal :=
  ∑ l : Fin 1024, asFn (S := S1024x1024) (iblk1 V c 0 t) (ix2 p l) * asFn (S := S512x1024) (iblk1 V c 2 t) (ix2 q l)
/-- The second product. -/
def prodB1 (c : Dev nD) (t : Fin cfg1.N) (p : Fin 1024) (q : Fin 512) : EReal :=
  ∑ l : Fin 1024, asFn (S := S1024x1024) (iblk1 V c 1 t) (ix2 p l) * asFn (S := S512x1024) (iblk1 V c 3 t) (ix2 q l)

/-- At the first point of four the accumulator is zero plus the two products. -/
theorem acc1_first (c : Dev nD) (n : ℕ) (hn : n < cfg1.N) (h0 : n % 4 = 0) (p : Fin 1024) (q : Fin 512) :
    asFn (S := S1024x512) ((outsAt1 V c n hn).2) (ix2 p q) = (0 + prodA1 V c ⟨n, hn⟩ p q) + prodB1 V c ⟨n, hn⟩ p q := by
  show ((outsAt1 V c n hn).2 : S1024x512.Idx → EReal) (ix2 p q) = _
  rw [outsAt1_A V c ⟨n, hn⟩ h0 (by show ¬ n % 4 = 3; omega)]
  unfold pt1_A; dsimp only
  rw [sout1_A_0_eq]
  refine (Cert.KernelIdeal.Pay.k1_pay3_apply _ _ _ p q).trans ?_
  refine congrArg (fun z => z + prodB1 V c ⟨n, hn⟩ p q) ?_
  refine (Cert.KernelIdeal.Pay.k1_pay2_apply _ _ _ p q).trans ?_
  exact congrArg (fun z => z + prodA1 V c ⟨n, hn⟩ p q) (Cert.KernelIdeal.Pay.k1_pay1_apply p q)

/-- At a later point it is what the point before left plus the two products. -/
theorem acc1_next (c : Dev nD) (n : ℕ) (hn : n + 1 < cfg1.N) (h0 : ¬ (n + 1) % 4 = 0) (p : Fin 1024) (q : Fin 512) :
    asFn (S := S1024x512) ((outsAt1 V c (n + 1) hn).2) (ix2 p q)
      = (asFn (S := S1024x512) ((outsAt1 V c n (Nat.lt_of_succ_lt hn)).2) (ix2 p q) + prodA1 V c ⟨n + 1, hn⟩ p q) + prodB1 V c ⟨n + 1, hn⟩ p q := by
  show ((outsAt1 V c (n + 1) hn).2 : S1024x512.Idx → EReal) (ix2 p q) = _
  by_cases h1 : (n + 1) % 4 = 3
  · rw [outsAt1_C V c ⟨n + 1, hn⟩ h0 h1]
    unfold pt1_C; dsimp only
    rw [sout1_C_0_eq]
    refine (Cert.KernelIdeal.Pay.k1_pay3_apply _ _ _ p q).trans ?_
    exact congrArg (fun z => z + prodB1 V c ⟨n + 1, hn⟩ p q) (Cert.KernelIdeal.Pay.k1_pay2_apply _ _ _ p q)
  · rw [outsAt1_B V c ⟨n + 1, hn⟩ h0 h1]
    unfold pt1_B; dsimp only
    rw [sout1_B_0_eq]
    refine (Cert.KernelIdeal.Pay.k1_pay3_apply _ _ _ p q).trans ?_
    exact congrArg (fun z => z + prodB1 V c ⟨n + 1, hn⟩ p q) (Cert.KernelIdeal.Pay.k1_pay2_apply _ _ _ p q)

/-- At a last point of four the output block is the accumulator plus the bias row. -/
theorem out1_last (c : Dev nD) (n : ℕ) (hn : n < cfg1.N) (h1 : n % 4 = 3) (p : Fin 1024) (q : Fin 512) :
    asFn (S := S1024x512) ((outsAt1 V c n hn).1) (ix2 p q)
      = asFn (S := S1024x512) ((outsAt1 V c n hn).2) (ix2 p q) + asFn (S := S1x512) (iblk1 V c 4 ⟨n, hn⟩) (ix2 (0 : Fin 1) q) := by
  have h0 : ¬ n % 4 = 0 := by omega
  show ((outsAt1 V c n hn).1 : S1024x512.Idx → EReal) (ix2 p q) = ((outsAt1 V c n hn).2 : S1024x512.Idx → EReal) (ix2 p q) + _
  rw [outsAt1_C V c ⟨n, hn⟩ h0 h1]
  unfold pt1_C; dsimp only
  rw [out1_C_5_eq, sout1_C_0_eq]
  exact Cert.KernelIdeal.Pay.k1_pay4_apply _ _ p q

/-! ## A whole run of four points: the entry of the result -/

/-- One entry of the region's result: the two full products' sums, then the bias row's entry. -/
def gmatAt1 (c : Dev nD) (p : Fin 1024) (n : Fin 4096) : EReal :=
  ((∑ k : Fin 4096, asFn (S := S1024x4096) (V c main_v7) (ix2 p k) * asFn (S := S4096x4096) (V c main_arg6) (ix2 n k)) + (∑ k : Fin 4096, asFn (S := S1024x4096) (V c main_v3) (ix2 p k) * asFn (S := S4096x4096) (V c main_arg4) (ix2 n k))) + asFn (S := S1x4096) (V c main_v12) (ix2 (0 : Fin 1) n)

/-- The region's result as a matrix. -/
def gmat1 (c : Dev nD) : S1024x4096.Idx → EReal := fun i => gmatAt1 V c (i 0) (i 1)

/-- A point's first product is the slice's part of the full contraction. -/
theorem prodA1_eq (c : Dev nD) (j : Fin 8) (s : Fin 4) (p : Fin 1024) (q : Fin 512) :
    prodA1 V c (ptOf1 j s) p q
      = ∑ l : Fin 1024, (fun k : Fin 4096 => asFn (S := S1024x4096) (V c main_v7) (ix2 p k) * asFn (S := S4096x4096) (V c main_arg6) (ix2 (⟨512 * j.val + q.val, by omega⟩ : Fin 4096) k)) ⟨1024 * s.val + l.val, by omega⟩ :=
  Finset.sum_congr rfl fun l _ => by rw [blk1_0 V c j s p l, blk1_2 V c j s q l]
theorem prodB1_eq (c : Dev nD) (j : Fin 8) (s : Fin 4) (p : Fin 1024) (q : Fin 512) :
    prodB1 V c (ptOf1 j s) p q
      = ∑ l : Fin 1024, (fun k : Fin 4096 => asFn (S := S1024x4096) (V c main_v3) (ix2 p k) * asFn (S := S4096x4096) (V c main_arg4) (ix2 (⟨512 * j.val + q.val, by omega⟩ : Fin 4096) k)) ⟨1024 * s.val + l.val, by omega⟩ :=
  Finset.sum_congr rfl fun l _ => by rw [blk1_1 V c j s p l, blk1_3 V c j s q l]

/-- After the fourth point of column block `j` the output block holds the result's entries of that column block: the four
    slices' products, added in the order the points ran, are the two full contractions (a sum regrouped block by block). -/
theorem out1_block (c : Dev nD) (j : Fin 8) (p : Fin 1024) (q : Fin 512) :
    asFn (S := S1024x512) ((outsAt1 V c (ptOf1 j 3).val (ptOf1 j 3).isLt).1) (ix2 p q)
      = gmatAt1 V c p ⟨512 * j.val + q.val, by omega⟩ := by
  have hN : cfg1.N = 32 := N_1
  have h3 : 4 * j.val + 3 < cfg1.N := by omega
  have e3 := acc1_next V c (4 * j.val + 2) h3 (by omega) p q
  have e2 := acc1_next V c (4 * j.val + 1) (by omega) (by omega) p q
  have e1 := acc1_next V c (4 * j.val) (by omega) (by omega) p q
  have e0 := acc1_first V c (4 * j.val) (by omega) (by omega) p q
  have eo := out1_last V c (4 * j.val + 3) h3 (by omega) p q
  have hb := blk1_4 V c j 3 q
  refine (eo.trans ?_)
  rw [e3, e2, e1, e0]
  refine (congrArg (fun z => _ + z) hb).trans ?_
  exact Cert.KernelIdeal.Acc.acc_total_ereal _ _
    (fun s : Fin 4 => prodA1 V c (ptOf1 j s) p q) (fun s : Fin 4 => prodB1 V c (ptOf1 j s) p q) _
    (fun s => prodA1_eq V c j s p q) (fun s => prodB1_eq V c j s p q)

/-! ## From blocks to the array -/

/-- What a writing-back point writes back is its block of the result matrix. -/
theorem flushed1_eq (c : Dev nD) (t : Fin cfg1.N) (hf : (cfg1.win 5).flush t = true) :
    (dat1 V c).flushed 5 t = ((cfg1.win 5).blk t).view.read (Elt Ideal) (gmat1 V c) := by
  have h3 : t.val % 4 = 3 := (flush1_5 t).mp hf
  have hN : cfg1.N = 32 := N_1
  have htl : t.val < 32 := lt_of_lt_of_eq t.isLt hN
  obtain ⟨j, rfl⟩ : ∃ j : Fin 8, t = ptOf1 j 3 := ⟨⟨t.val / 4, by omega⟩, Fin.ext (by show t.val = 4 * (t.val / 4) + 3; omega)⟩
  show (cfg1.win 5).cut (grid1.coords (ptOf1 j 3)) ((dat1 V c).after 5 (ptOf1 j 3)) = _
  rw [after1_5]
  funext y
  obtain ⟨p, q, rfl⟩ : ∃ (p : Fin 1024) (q : Fin 512), y = ix2 p q := ⟨y 0, y 1, eq_ix2 y⟩
  refine (out1_block V c j p q).trans ?_
  show gmatAt1 V c p ⟨512 * j.val + q.val, _⟩ = gmat1 V c (((cfg1.win 5).blk (ptOf1 j 3)).view.emb (ix2 p q))
  unfold gmat1
  obtain ⟨-, -, -, -, -, -, -, -, -, -, e50, e51⟩ := idx1 (ptOf1 j 3)
  have hv : (ptOf1 j 3).val = 4 * j.val + 3 := rfl
  congr 1
  · exact Fin.ext (by show p.val = win1_5.index (ptOf1 j 3) (0 : Fin 2) * 1024 + 1 * p.val; omega)
  · exact Fin.ext (by show 512 * j.val + q.val = win1_5.index (ptOf1 j 3) (1 : Fin 2) * 512 + 1 * q.val; omega)

/-- An index of the result array is in a point's output block iff each coordinate is in the block's range. -/
theorem mem_blk1 (t : Fin cfg1.N) (i : S1024x4096.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v13).slice (win1_5.rect t)).set ↔ _
  rw [View.set_slice_whole, Rect.mem_set_unit]
  exact Iff.rfl

/-- Every index of the result array is in some writing-back point's block: the eight column blocks tile it. -/
theorem cover1 (i : S1024x4096.Idx) : ∃ t : Fin cfg1.N, (cfg1.win 5).flush t = true ∧ i ∈ ((cfg1.win 5).blk t).view.set := by
  have hi0 : (i 0).val < 1024 := (i 0).isLt
  have hi1 : (i 1).val < 4096 := (i 1).isLt
  refine ⟨ptOf1 ⟨(i 1).val / 512, by omega⟩ 3, (flush1_5 _).mpr (by show (4 * ((i 1).val / 512) + 3) % 4 = 3; omega), ?_⟩
  rw [mem_blk1]
  obtain ⟨-, -, -, -, -, -, -, -, -, -, e50, e51⟩ := idx1 (ptOf1 ⟨(i 1).val / 512, by omega⟩ 3)
  have hv : (ptOf1 ⟨(i 1).val / 512, by omega⟩ 3).val = 4 * ((i 1).val / 512) + 3 := rfl
  intro a
  match a with
  | ⟨0, _⟩ => show win1_5.index _ (0 : Fin 2) * 1024 ≤ (i 0).val ∧ (i 0).val < win1_5.index _ (0 : Fin 2) * 1024 + 1024; omega
  | ⟨1, _⟩ => show win1_5.index _ (1 : Fin 2) * 512 ≤ (i 1).val ∧ (i 1).val < win1_5.index _ (1 : Fin 2) * 512 + 512; omega

/-- THE RESULT ARRAY after the region: the result matrix of the arrays the region found. -/
theorem final1 (c : Dev nD) : (dat1 V c).arrAt 5 cfg1.N = gmat1 V c :=
  (dat1 V c).arrAt_eq_of_cover 5 (gmat1 V c) (fun t hf => flushed1_eq V c t hf) (cover1)

end Value1

end Cert.KernelIdeal.Hand

end
-- ==== Proof.Spec.lean ====
/-
  The mathematics both programs compute, stated once over plain index functions.

  An input volume x[b, 0, h, l, d] (2 × 1 × 128 × 128 × 128) is cut into 8·8·8 non-overlapping cubes of edge 16 per sample;
  cube (b, hb, lb, db) flattened row-major is row m = ((b·8 + hb)·8 + lb)·8 + db of a 1024 × 4096 matrix of patches, and the
  offset (hi, li, di) inside the cube is its column k = (hi·16 + li)·16 + di (`patches`).  `unpatch` is the inverse layout:
  a 1024 × 4096 matrix put back, row by row, into the cubes of a volume.  Both are pure re-indexings.

  One fused branch pair is, entry by entry,
      out[m, n] = (Σ_k pa[m, k] · wa[n, k] + Σ_k pb[m, k] · wb[n, k]) + (ba[n] + bb[n])
  over the extended reals (`fused`): two matrix products against transposed weights, summed, plus the two biases.
-/
import Idealize.ShloMosaic.PureOps.Ideal
import Idealize.ShloMosaic.Lib.ValueIdx
import Idealize.ShloMosaic.Lib.Pipeline.Value

noncomputable section

namespace Cert.PatchGemm

open Idealize.ShloMosaic Idealize.ShloMosaic.ValueIdx

/-- The volume [2, 1, 128, 128, 128]. -/
abbrev SVol : Shape := ⟨5, ![2, 1, 128, 128, 128]⟩
/-- The volume without its unit channel axis. -/
abbrev SVol4 : Shape := ⟨4, ![2, 128, 128, 128]⟩
/-- Each spatial axis split into (cube, offset): [b, hb, hi, lb, li, db, di]. -/
abbrev SSplit : Shape := ⟨7, ![2, 8, 16, 8, 16, 8, 16]⟩
/-- Cubes first, offsets last: [b, hb, lb, db, hi, li, di]. -/
abbrev SCubes : Shape := ⟨7, ![2, 8, 8, 8, 16, 16, 16]⟩
/-- The matrix of patches, and of results: 1024 cubes × 4096 entries. -/
abbrev SMat : Shape := ⟨2, ![1024, 4096]⟩
/-- A weight matrix [out channel, patch entry]. -/
abbrev SWt : Shape := ⟨2, ![4096, 4096]⟩
/-- A bias vector. -/
abbrev SBias : Shape := ⟨1, ![4096]⟩

variable {α : Type}

/-- The volume as its matrix of flattened cubes. -/
def patches (x : SVol.Idx → α) : SMat.Idx → α :=
  shapeCast SMat (transpose SCubes [0, 1, 3, 5, 2, 4, 6] (shapeCast SSplit (shapeCast SVol4 x (by decide)) (by decide)) (by decide)) (by decide)

/-- A matrix of flattened cubes put back as a volume. -/
def unpatch (y : SMat.Idx → α) : SVol.Idx → α :=
  shapeCast SVol (transpose SSplit [0, 1, 4, 2, 5, 3, 6] (shapeCast SCubes y (by decide)) (by decide)) (by decide)

/-- One entry of a fused branch pair: the two products' sums, then the two biases. -/
def fusedAt (pa pb : SMat.Idx → EReal) (wa wb : SWt.Idx → EReal) (ba bb : SBias.Idx → EReal) (m : Fin 1024) (n : Fin 4096) : EReal :=
  ((∑ k : Fin 4096, pa (ix2 m k) * wa (ix2 n k)) + (∑ k : Fin 4096, pb (ix2 m k) * wb (ix2 n k))) + (ba (ix1 n) + bb (ix1 n))

/-- The fused branch pair as a matrix. -/
def fused (pa pb : SMat.Idx → EReal) (wa wb : SWt.Idx → EReal) (ba bb : SBias.Idx → EReal) : SMat.Idx → EReal :=
  fun j => fusedAt pa pb wa wb ba bb (j 0) (j 1)

/-- A result volume of the whole computation: the fused pair of the two inputs' patches, put back as a volume. -/
def result (xa xb : SVol.Idx → EReal) (wa wb : SWt.Idx → EReal) (ba bb : SBias.Idx → EReal) : SVol.Idx → EReal :=
  unpatch (fused (patches xa) (patches xb) wa wb ba bb)

/-- `unpatch` only moves entries: it reads its matrix at one index per volume index. -/
theorem unpatch_apply (y : SMat.Idx → α) (i : SVol.Idx) :
    unpatch y i = y (Shape.reshapeEquiv (by decide : SMat.ShapeCasts SCubes)
      ((by decide : SCubes.Transposes [0, 1, 4, 2, 5, 3, 6] SSplit).src (Shape.reshapeEquiv (by decide : SSplit.ShapeCasts SVol) i))) := rfl

end Cert.PatchGemm

end
-- ==== Proof.KernelHost.lean ====
/-
  The kernel program's host operations are the specification's layout maps.

  Before its first call the program cuts each input volume into the 1024 × 4096 matrix of patches (`Cert.PatchGemm.patches`),
  adds the two biases of each result, and views each bias sum [4096] as a row [1, 4096]; after its second call it puts each
  1024 × 4096 result matrix back into a volume (`Cert.PatchGemm.unpatch`). These are the same changes of shape and the same
  transpositions as the specification's, so each equation is the two sides spelt alike.
-/
import proofs.«167216_j48137993453602_2_alg».proof.Proof.Gen.KernelIdeal.Launch
import proofs.«167216_j48137993453602_2_alg».proof.Proof.Spec
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.ValueIdx Idealize.ShloMosaic.TcCoe
open Idealize.ShloMosaic.StableHlo Idealize.SL.Sem

variable (W : Valuation τ sig (Elt Ideal))

/-! ## Before the first call -/

/-- The first input's matrix of patches. -/
theorem ops0_v3 : (StableHlo.after (hostOps0 (F := Ideal)) W (Proc.devRef .tc main_v3) : S1024x4096.Idx → EReal)
    = Cert.PatchGemm.patches (W (Proc.devRef .tc main_arg0) : S2x1x128x128x128.Idx → EReal) := by
  after_results <;> rfl

/-- The second input's matrix of patches. -/
theorem ops0_v7 : (StableHlo.after (hostOps0 (F := Ideal)) W (Proc.devRef .tc main_v7) : S1024x4096.Idx → EReal)
    = Cert.PatchGemm.patches (W (Proc.devRef .tc main_arg1) : S2x1x128x128x128.Idx → EReal) := by
  after_results <;> rfl

/-- The first result's bias sum, as a row. -/
theorem ops0_v10 : (StableHlo.after (hostOps0 (F := Ideal)) W (Proc.devRef .tc main_v10) : S1x4096.Idx → EReal)
    = shapeCast S1x4096 (addf (F := Ideal) (s := S4096) (φ := .f32) (W (Proc.devRef .tc main_arg3)) (W (Proc.devRef .tc main_arg9))) shapeCasts_S4096_S1x4096 := by
  after_results <;> rfl

/-- The second result's bias sum. -/
theorem ops0_v9 : (StableHlo.after (hostOps0 (F := Ideal)) W (Proc.devRef .tc main_v9) : S4096.Idx → EReal)
    = addf (F := Ideal) (s := S4096) (φ := .f32) (W (Proc.devRef .tc main_arg7)) (W (Proc.devRef .tc main_arg5)) := by
  after_results <;> rfl

/-! ## Between the calls -/

/-- The second result's bias sum, as a row. -/
theorem ops1_v12 : (StableHlo.after (hostOps1 (F := Ideal)) W (Proc.devRef .tc main_v12) : S1x4096.Idx → EReal)
    = shapeCast S1x4096 (W (Proc.devRef .tc main_v9) : S4096.Idx → EReal) shapeCasts_S4096_S1x4096 := by
  after_results <;> rfl

/-! ## After the second call -/

/-- The first result matrix put back into a volume. -/
theorem ops2_v16 : (StableHlo.after (hostOps2 (F := Ideal)) W (Proc.devRef .tc main_v16) : S2x1x128x128x128.Idx → EReal)
    = Cert.PatchGemm.unpatch (W (Proc.devRef .tc main_v11) : S1024x4096.Idx → EReal) := by
  after_results <;> rfl

/-- The second result matrix put back into a volume. -/
theorem ops2_v19 : (StableHlo.after (hostOps2 (F := Ideal)) W (Proc.devRef .tc main_v19) : S2x1x128x128x128.Idx → EReal)
    = Cert.PatchGemm.unpatch (W (Proc.devRef .tc main_v13) : S1024x4096.Idx → EReal) := by
  after_results <;> rfl

/-! ## A bias row read at an index -/

/-- A vector [4096] viewed as a row [1, 4096] reads, at (0, n), the vector at n. -/
theorem row_apply {α : Type} (v : S4096.Idx → α) (h : S4096.ShapeCasts S1x4096) (n : Fin 4096) :
    shapeCast S1x4096 v h (ix2 (0 : Fin 1) n) = v (ix1 n) :=
  shapeCast_a_1a_apply v h 0 n

end Cert.KernelIdeal.Host

end
-- ==== Proof.KernelIdealResult.lean ====
/-
  The idealized kernel's two result volumes, read off the contents at the return: each is the specification's `result` of the
  argument arrays. A result volume is the result matrix of its call put back into a volume; the call's result matrix is the
  fused pair of its operands (the region's value); its operands are the two inputs' matrices of patches, two weight arrays as
  launched, and the row of the two biases' sum — the host operations before and between the calls, and no segment changes
  an argument or an earlier segment's result that a later one reads.
-/
import proofs.«167216_j48137993453602_2_alg».proof.Proof.KernelIdealFrame
import proofs.«167216_j48137993453602_2_alg».proof.Proof.KernelIdealValue0
import proofs.«167216_j48137993453602_2_alg».proof.Proof.KernelIdealValue1
import proofs.«167216_j48137993453602_2_alg».proof.Proof.KernelHost
import proofs.«167216_j48137993453602_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.PatchGemm

variable (m : (ℓ : Loc nD τ sig) → Buf (Elt Ideal) ℓ)

/-! ## What region 0 finds -/

theorem U1_v3 (c : Dev nD) : (U1 m c main_v3 : S1024x4096.Idx → EReal) = patches (m ((c : Thread nD τ).loc main_arg0)) :=
  Cert.KernelIdeal.Host.ops0_v3 (W0 m c)
theorem U1_v7 (c : Dev nD) : (U1 m c main_v7 : S1024x4096.Idx → EReal) = patches (m ((c : Thread nD τ).loc main_arg1)) :=
  Cert.KernelIdeal.Host.ops0_v7 (W0 m c)
theorem U1_arg (c : Dev nD) (r : Ref sig .tc) (h : r ∉ hostOps0_W) : U1 m c r = m ((c : Thread nD τ).loc r) :=
  StableHlo.after_of_writes_sub hostOps0 _ hostOps0_writes h
theorem U1_v10 (c : Dev nD) (n : Fin 4096) :
    asFn (S := S1x4096) (U1 m c main_v10) (ix2 (0 : Fin 1) n) = asFn (S := S4096) (m ((c : Thread nD τ).loc main_arg3)) (ix1 n) + asFn (S := S4096) (m ((c : Thread nD τ).loc main_arg9)) (ix1 n) := by
  have e := Cert.KernelIdeal.Host.ops0_v10 (W0 m c)
  refine (congrFun e (ix2 (0 : Fin 1) n)).trans ?_
  rw [Cert.KernelIdeal.Host.row_apply]
  rfl

/-- Region 0's result matrix is the fused pair of the two inputs' patches with the first result's weights and biases. -/
theorem gmat0_eq (c : Dev nD) :
    gmat0 (U1 m) c = fused (patches (m ((c : Thread nD τ).loc main_arg0))) (patches (m ((c : Thread nD τ).loc main_arg1))) (m ((c : Thread nD τ).loc main_arg2)) (m ((c : Thread nD τ).loc main_arg8)) (m ((c : Thread nD τ).loc main_arg3)) (m ((c : Thread nD τ).loc main_arg9)) := by
  funext i
  unfold gmat0 gmatAt0 fused fusedAt
  rw [U1_v3 m c, U1_v7 m c, U1_arg m c main_arg2 (by decide), U1_arg m c main_arg8 (by decide), U1_v10 m c (i 1)]

/-! ## What region 1 finds: the same buffers, one host operation and one region later -/

theorem U3_of (c : Dev nD) (r : Ref sig .tc) (h1 : r ∉ hostOps1_W) (h11 : r ≠ main_v11) : U3 m c r = U1 m c r :=
  (StableHlo.after_of_writes_sub hostOps1 _ hostOps1_writes h1).trans (W2_keep m c r h11)
theorem U3_v12 (c : Dev nD) (n : Fin 4096) :
    asFn (S := S1x4096) (U3 m c main_v12) (ix2 (0 : Fin 1) n) = asFn (S := S4096) (m ((c : Thread nD τ).loc main_arg7)) (ix1 n) + asFn (S := S4096) (m ((c : Thread nD τ).loc main_arg5)) (ix1 n) := by
  have e := Cert.KernelIdeal.Host.ops1_v12 (W2 m c)
  refine (congrFun e (ix2 (0 : Fin 1) n)).trans ?_
  rw [Cert.KernelIdeal.Host.row_apply]
  have e9 : (W2 m c (Proc.devRef .tc main_v9) : S4096.Idx → EReal) = _ := (W2_keep m c main_v9 (by decide)).trans (Cert.KernelIdeal.Host.ops0_v9 (W0 m c))
  rw [e9]
  rfl

/-- Region 1's result matrix is the fused pair with the inputs exchanged and the second result's weights and biases. -/
theorem gmat1_eq (c : Dev nD) :
    gmat1 (U3 m) c = fused (patches (m ((c : Thread nD τ).loc main_arg1))) (patches (m ((c : Thread nD τ).loc main_arg0))) (m ((c : Thread nD τ).loc main_arg6)) (m ((c : Thread nD τ).loc main_arg4)) (m ((c : Thread nD τ).loc main_arg7)) (m ((c : Thread nD τ).loc main_arg5)) := by
  funext i
  unfold gmat1 gmatAt1 fused fusedAt
  rw [U3_of m c main_v7 (by decide) (by decide), U3_of m c main_v3 (by decide) (by decide), U1_v3 m c, U1_v7 m c,
    U3_of m c main_arg6 (by decide) (by decide), U3_of m c main_arg4 (by decide) (by decide),
    U1_arg m c main_arg6 (by decide), U1_arg m c main_arg4 (by decide), U3_v12 m c (i 1)]

/-! ## The two results at the return -/

/-- The first result volume. -/
theorem W5_v16 (c : Dev nD) :
    (W5 m c (Proc.devRef .tc main_v16) : S2x1x128x128x128.Idx → EReal)
      = result (m ((c : Thread nD τ).loc main_arg0)) (m ((c : Thread nD τ).loc main_arg1)) (m ((c : Thread nD τ).loc main_arg2)) (m ((c : Thread nD τ).loc main_arg8)) (m ((c : Thread nD τ).loc main_arg3)) (m ((c : Thread nD τ).loc main_arg9)) := by
  refine (Cert.KernelIdeal.Host.ops2_v16 (W4 m c)).trans ?_
  unfold result
  refine congrArg unpatch ?_
  refine (W4_keep m c main_v11 (by decide)).trans ?_
  refine (StableHlo.after_of_writes_sub hostOps1 _ hostOps1_writes (by decide : main_v11 ∉ hostOps1_W)).trans ?_
  refine (W2_arr m c 5).trans ?_
  exact (final0 (U1 m) c).trans (gmat0_eq m c)

/-- The second result volume. -/
theorem W5_v19 (c : Dev nD) :
    (W5 m c (Proc.devRef .tc main_v19) : S2x1x128x128x128.Idx → EReal)
      = result (m ((c : Thread nD τ).loc main_arg1)) (m ((c : Thread nD τ).loc main_arg0)) (m ((c : Thread nD τ).loc main_arg6)) (m ((c : Thread nD τ).loc main_arg4)) (m ((c : Thread nD τ).loc main_arg7)) (m ((c : Thread nD τ).loc main_arg5)) := by
  refine (Cert.KernelIdeal.Host.ops2_v19 (W4 m c)).trans ?_
  unfold result
  refine congrArg unpatch ?_
  refine (W4_arr m c 5).trans ?_
  exact (final1 (U3 m) c).trans (gmat1_eq m c)

/-- THE IDEALIZED KERNEL'S RUN, read: it terminates, nothing faulting, with the two result volumes at the specification's
    results of the argument arrays and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v16) = result (m ((c : Thread nD τ).loc main_arg0)) (m ((c : Thread nD τ).loc main_arg1)) (m ((c : Thread nD τ).loc main_arg2)) (m ((c : Thread nD τ).loc main_arg8)) (m ((c : Thread nD τ).loc main_arg3)) (m ((c : Thread nD τ).loc main_arg9))
      ∧ r.2.mem ((c.tc : Thread nD τ).loc main_v19) = result (m ((c : Thread nD τ).loc main_arg1)) (m ((c : Thread nD τ).loc main_arg0)) (m ((c : Thread nD τ).loc main_arg6)) (m ((c : Thread nD τ).loc main_arg4)) (m ((c : Thread nD τ).loc main_arg7)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_v16 (by decide))).trans (W5_v16 m c),
    (h c _ (mem_uc main_v19 (by decide))).trans (W5_v19 m c),
    (h c _ (mem_uc main_arg0 (by decide))).trans (W5_keep m c main_arg0 (by decide) (by decide) (by decide) (by decide) (by decide)),
    (h c _ (mem_uc main_arg1 (by decide))).trans (W5_keep m c main_arg1 (by decide) (by decide) (by decide) (by decide) (by decide)),
    (h c _ (mem_uc main_arg2 (by decide))).trans (W5_keep m c main_arg2 (by decide) (by decide) (by decide) (by decide) (by decide)),
    (h c _ (mem_uc main_arg3 (by decide))).trans (W5_keep m c main_arg3 (by decide) (by decide) (by decide) (by decide) (by decide)),
    (h c _ (mem_uc main_arg4 (by decide))).trans (W5_keep m c main_arg4 (by decide) (by decide) (by decide) (by decide) (by decide)),
    (h c _ (mem_uc main_arg5 (by decide))).trans (W5_keep m c main_arg5 (by decide) (by decide) (by decide) (by decide) (by decide)),
    (h c _ (mem_uc main_arg6 (by decide))).trans (W5_keep m c main_arg6 (by decide) (by decide) (by decide) (by decide) (by decide)),
    (h c _ (mem_uc main_arg7 (by decide))).trans (W5_keep m c main_arg7 (by decide) (by decide) (by decide) (by decide) (by decide)),
    (h c _ (mem_uc main_arg8 (by decide))).trans (W5_keep m c main_arg8 (by decide) (by decide) (by decide) (by decide) (by decide)),
    (h c _ (mem_uc main_arg9 (by decide))).trans (W5_keep m c main_arg9 (by decide) (by decide) (by decide) (by decide) (by decide))⟩)
    (run_all m ρ)

end Cert.KernelIdeal.Hand

end
-- ==== Proof.RefSide.lean ====
/-
  The reference, entry by entry: each of its two result volumes is `Cert.PatchGemm.result` of the argument arrays.

  The reference cuts a volume into cubes exactly as `Cert.PatchGemm.patches` does, but keeps the 1024 rows of cubes as
  2 slabs of 512: its matrix of patches is [2, 512, 4096], and row p of slab b is row b·512 + p of the 1024 × 4096 matrix
  (the two arrays hold the same entries in the same row-major order). Each of its four branches multiplies the patches
  by a transposed weight matrix, adds a bias, and puts the rows back into a volume as `Cert.PatchGemm.unpatch` does;
  a result volume is the entrywise sum of two such volumes. Because putting rows back only moves entries, the sum of two
  volumes is the volume of the sum of the two matrices, and what is left is
      (A + a) + (B + b) = (A + B) + (a + b)
  in the extended reals, which holds in every commutative additive monoid.
-/
import proofs.«167216_j48137993453602_2_alg».proof.Proof.Gen.ReferenceIdeal.Read
import proofs.«167216_j48137993453602_2_alg».proof.Proof.Spec

noncomputable section

namespace Cert.ReferenceIdeal.RefSide

open Idealize.ShloMosaic Idealize.ShloMosaic.ValueIdx Cert.PatchGemm
open Cert.ReferenceIdeal Cert.ReferenceIdeal.Gen Cert.ReferenceIdeal.Read

variable {α : Type}

/-- Two changes of shape in a row are one: both keep the row-major order of the entries. -/
theorem shapeCast_comp {s t u : Shape} (x : s.Idx → α) (h : s.ShapeCasts t) (h' : t.ShapeCasts u) :
    shapeCast u (shapeCast t x h) h' = shapeCast u x (h'.trans h) :=
  funext fun j => congrArg x (Shape.reshapeEquiv_reshapeEquiv h h' j)

/-- Row b·512 + p of the 1024 × 4096 matrix is row p of slab b of the [2, 512, 4096] array. -/
theorem cast3_apply (y : SMat.Idx → α) (h : SMat.ShapeCasts S2x512x4096) (b : Fin 2) (p : Fin 512) (k : Fin 4096) :
    shapeCast S2x512x4096 y h (ix3 b p k) = y (ix2 (⟨b.val * 512 + p.val, by omega⟩ : Fin 1024) k) :=
  shapeCast_apply y h (ix3 b p k) (ix2 (⟨b.val * 512 + p.val, by omega⟩ : Fin 1024) k) (by
    rw [Shape.rowMajor_val_two, Shape.rowMajor_val_three]
    show (b.val * 512 + p.val) * 4096 + k.val = (b.val * 512 + p.val) * 4096 + k.val
    rfl)

/-- One entry of one branch: a row of patches against a row of the weights, plus the bias. -/
def branchAt (p : SMat.Idx → EReal) (w : SWt.Idx → EReal) (b : SBias.Idx → EReal) (m : Fin 1024) (n : Fin 4096) : EReal :=
  (∑ k : Fin 4096, p (ix2 m k) * w (ix2 n k)) + b (ix1 n)

/-- One branch as a 1024 × 4096 matrix. -/
def branch (p : SMat.Idx → EReal) (w : SWt.Idx → EReal) (b : SBias.Idx → EReal) : SMat.Idx → EReal :=
  fun j => branchAt p w b (j 0) (j 1)

/-- The reference's [2, 512, 4096] array of patches is the matrix of patches under another shape. -/
theorem v3_eq (x : (⟨S2x1x128x128x128, .f32⟩ : BufTy).Contents (Elt Ideal)) :
    val_main_v3 (F := Ideal) x = shapeCast S2x512x4096 (patches x) (by decide) := by
  unfold patches
  rw [shapeCast_comp]
  rfl

/-- A branch before it is put back into a volume, at slab b, row p, column n. -/
theorem v7_apply (x : (⟨S2x1x128x128x128, .f32⟩ : BufTy).Contents (Elt Ideal)) (W : (⟨S4096x4096, .f32⟩ : BufTy).Contents (Elt Ideal))
    (c : (⟨S4096, .f32⟩ : BufTy).Contents (Elt Ideal)) (b : Fin 2) (p : Fin 512) (n : Fin 4096) :
    val_main_v7 (F := Ideal) x W c (ix3 b p n) = branchAt (patches x) W c (⟨b.val * 512 + p.val, by omega⟩ : Fin 1024) n := by
  have el : ∀ k : Fin 4096, lidx_main_v4 (ix3 b p n) k = ix3 b p k := fun k => funext fun a => by
    match a with | ⟨0, _⟩ => rfl | ⟨1, _⟩ => rfl | ⟨2, _⟩ => rfl
  have er : ∀ k : Fin 4096, ridx_main_v4 (ix3 b p n) k = ix2 n k := fun k => funext fun a => by
    match a with | ⟨0, _⟩ => rfl | ⟨1, _⟩ => rfl
  have eb : idx_main_v5 (idx_main_v6 (ix3 b p n)) = ix1 n := funext fun a => by
    match a with | ⟨0, _⟩ => rfl
  rw [val_main_v7_apply, val_main_v4_apply, val_main_v6_apply, val_main_v5_apply, v3_eq, eb, Ideal.addf_def]
  unfold branchAt
  refine congrArg (· + c (ix1 n)) (Finset.sum_congr rfl fun k _ => ?_)
  rw [el k, er k, cast3_apply]

/-- A branch before it is put back into a volume is the branch matrix under the shape [2, 512, 4096]. -/
theorem v7_eq (x : (⟨S2x1x128x128x128, .f32⟩ : BufTy).Contents (Elt Ideal)) (W : (⟨S4096x4096, .f32⟩ : BufTy).Contents (Elt Ideal))
    (c : (⟨S4096, .f32⟩ : BufTy).Contents (Elt Ideal)) :
    val_main_v7 (F := Ideal) x W c = shapeCast S2x512x4096 (branch (patches x) W c) (by decide) := by
  funext i
  obtain ⟨b, p, n, rfl⟩ : ∃ (b : Fin 2) (p : Fin 512) (n : Fin 4096), i = ix3 b p n := ⟨i 0, i 1, i 2, eq_ix3 i⟩
  rw [v7_apply, cast3_apply]
  rfl

/-- One branch of the reference is the branch matrix put back into a volume. -/
theorem v10_eq (x : (⟨S2x1x128x128x128, .f32⟩ : BufTy).Contents (Elt Ideal)) (W : (⟨S4096x4096, .f32⟩ : BufTy).Contents (Elt Ideal))
    (c : (⟨S4096, .f32⟩ : BufTy).Contents (Elt Ideal)) :
    val_main_v10 (F := Ideal) x W c = unpatch (branch (patches x) W c) := by
  unfold val_main_v10 val_main_v9 val_main_v8
  rw [v7_eq, shapeCast_comp]
  rfl

/-- The entrywise sum of two branches put back into volumes is the fused pair put back into a volume. -/
theorem add_unpatch (pa pb : SMat.Idx → EReal) (wa wb : SWt.Idx → EReal) (ba bb : SBias.Idx → EReal) (i : SVol.Idx) :
    unpatch (branch pa wa ba) i + unpatch (branch pb wb bb) i = unpatch (fused pa pb wa wb ba bb) i := by
  rw [unpatch_apply, unpatch_apply, unpatch_apply]
  exact add_add_add_comm _ _ _ _

/-- The reference's first result volume is the fused pair of (x_r, W_rr, b_rr) and (x_i, W_ir, b_ir). -/
theorem val_main_v44_result (x0 x1 : (⟨S2x1x128x128x128, .f32⟩ : BufTy).Contents (Elt Ideal))
    (x2 : (⟨S4096x4096, .f32⟩ : BufTy).Contents (Elt Ideal)) (x3 : (⟨S4096, .f32⟩ : BufTy).Contents (Elt Ideal))
    (x8 : (⟨S4096x4096, .f32⟩ : BufTy).Contents (Elt Ideal)) (x9 : (⟨S4096, .f32⟩ : BufTy).Contents (Elt Ideal)) :
    val_main_v44 (F := Ideal) x0 x1 x2 x3 x8 x9 = result x0 x1 x2 x8 x3 x9 := by
  funext i
  have e43 : val_main_v43 (F := Ideal) x1 x8 x9 = val_main_v10 (F := Ideal) x1 x8 x9 := rfl
  rw [val_main_v44_apply, e43, v10_eq, v10_eq, Ideal.addf_def]
  exact add_unpatch _ _ _ _ _ _ i

/-- The reference's second result volume is the fused pair of (x_i, W_ii, b_ii) and (x_r, W_ri, b_ri). -/
theorem val_main_v45_result (x0 x1 : (⟨S2x1x128x128x128, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal)) :
    val_main_v45 (F := Ideal) x0 x1 x4 x5 x6 x7 = result x1 x0 x6 x4 x7 x5 := by
  funext i
  have e32 : val_main_v32 (F := Ideal) x1 x6 x7 = val_main_v10 (F := Ideal) x1 x6 x7 := rfl
  have e21 : val_main_v21 (F := Ideal) x0 x4 x5 = val_main_v10 (F := Ideal) x0 x4 x5 := rfl
  rw [val_main_v45_apply, e32, e21, v10_eq, v10_eq, Ideal.addf_def]
  exact add_unpatch _ _ _ _ _ _ i

end Cert.ReferenceIdeal.RefSide

end
-- ==== Proof.lean ====
/-
  The certificate's five claims.

  The kernel computes, for each of the two results, two matrix products of the 1024 × 4096 matrix of 16³ patches of an input
  volume against a transposed 4096 × 4096 weight matrix, summed, plus the sum of two bias vectors; the reference computes four
  such products, each plus its own bias, reassembles each into a volume, and adds the volumes in pairs. Over the extended reals
  both are, entry by entry, (Σ_k pa[m,k]·wa[n,k] + Σ_k pb[m,k]·wb[n,k]) + (ba[n] + bb[n]) read through the same change of layout:
  the kernel adds the contraction axis quarter by quarter into an accumulator and the bias sum last, the reference adds each
  bias to its own product first — the same terms under a commutative, associative addition, so the two agree with no
  assumption on the inputs (the precondition is never opened). Both programs run to their end leaving their arguments
  unchanged; the idealized kernel is the kernel's own text read at the exact instance, so `preserves` asks nothing.
-/
import proofs.«167216_j48137993453602_2_alg».proof.Defs
import proofs.«167216_j48137993453602_2_alg».proof.Proof.Gen.Kernel
import proofs.«167216_j48137993453602_2_alg».proof.Proof.Gen.KernelIdeal
import proofs.«167216_j48137993453602_2_alg».proof.Proof.Gen.ReferenceIdeal
import proofs.«167216_j48137993453602_2_alg».proof.Proof.Gen.Pre_finite_inputs
import proofs.«167216_j48137993453602_2_alg».proof.Proof.KernelFrame
import proofs.«167216_j48137993453602_2_alg».proof.Proof.KernelIdealResult
import proofs.«167216_j48137993453602_2_alg».proof.Proof.RefSide
import Idealize.ShloMosaic.Adequacy
import Idealize.ShloMosaic.Init

noncomputable section

namespace Cert.Proof

open Idealize.ShloMosaic Idealize.ShloMosaic.TcCoe Idealize.SL.Sem Cert.PatchGemm

theorem frame_k : Cert.frame_Kernel := fun m ρ _ => Cert.Kernel.Hand.frame m ρ
theorem frame_ki : Cert.frame_KernelIdeal := fun m ρ _ => Cert.KernelIdeal.Hand.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with each result volume at the specification's `result` of the argument arrays: the kernel's
    by its run read through its two regions, the reference's by its run read operation by operation; the memories agree on the arguments. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)),
    fun c => result (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨?_, ?_, (h c).2.2⟩) (Cert.ReferenceIdeal.Value.run (F := Ideal) m' ρ')
  · rw [(h c).1, Cert.ReferenceIdeal.Read.val_main_v44_eq, Cert.ReferenceIdeal.RefSide.val_main_v44_result,
      (hagree c).1, (hagree c).2.1, (hagree c).2.2.1, (hagree c).2.2.2.1, (hagree c).2.2.2.2.2.2.2.2.1, (hagree c).2.2.2.2.2.2.2.2.2]
  · rw [(h c).2.1, Cert.ReferenceIdeal.Read.val_main_v45_eq, Cert.ReferenceIdeal.RefSide.val_main_v45_result,
      (hagree c).1, (hagree c).2.1, (hagree c).2.2.2.2.1, (hagree c).2.2.2.2.2.1, (hagree c).2.2.2.2.2.2.1, (hagree c).2.2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
